-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x12x8 : Shape := ⟨4, ![8, 1024, 12, 8]⟩
abbrev S8x1024x1024 : Shape := ⟨3, ![8, 1024, 1024]⟩
abbrev S3x96x64 : Shape := ⟨3, ![3, 96, 64]⟩
abbrev S64 : Shape := ⟨1, ![64]⟩
abbrev S3x64x64 : Shape := ⟨3, ![3, 64, 64]⟩
abbrev S3x64x32 : Shape := ⟨3, ![3, 64, 32]⟩
abbrev S32 : Shape := ⟨1, ![32]⟩
abbrev S_ : Shape := ⟨0, ![]⟩

class Facts : Prop where
  bcast_S_S8x1024x12x8 : S_.BroadcastsInDim S8x1024x12x8 (![] : Fin 0 → Fin S8x1024x12x8.rank)
  reducesTo_S8x1024x12x8_S_d0_1_2_3 : S8x1024x12x8.ReducesTo [0, 1, 2, 3] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S3x96x64 : S_.BroadcastsInDim S3x96x64 (![] : Fin 0 → Fin S3x96x64.rank)
  reducesTo_S3x96x64_S_d0_1_2 : S3x96x64.ReducesTo [0, 1, 2] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64x32 : S_.BroadcastsInDim S3x64x32 (![] : Fin 0 → Fin S3x64x32.rank)
  reducesTo_S3x64x32_S_d0_1_2 : S3x64x32.ReducesTo [0, 1, 2] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S3x64x64 .f32) (main_arg5 : FVec F S64 .f32) (main_arg6 : FVec F S3x64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x32 .f32 := Host.absf main_arg6
  let main_cst_10 : FVec F S_ .f32 := constant S_ .f32 0x7F800000#32
  let main_v30 : FVec F S3x64x32 .f32 := broadcastInDim S3x64x32 ![] bcast_S_S3x64x32 main_cst_10
  let main_v31 : IVec S3x64x32 1 := cmpf .olt main_v29 main_v30
  let main_c_11 : IVec S_ 1 := constantI S_ 1 1#1
  let main_v32 : IVec S_ 1 := (fun x v => Host.reduce IntOp.andi x v reducesTo_S3x64x32_S_d0_1_2 h_S_) main_v31 main_c_11
  let main_v33 : IVec S_ 1 := andi main_v28 main_v32
  fn_part2 (F := F) main_arg7 main_v33

def fn {F : FTy → Type} [FloatOps F] (main_arg0 : FVec F S8x1024x12x8 .f32) (main_arg1 : FVec F S8x1024x1024 .f32) (main_arg2 : FVec F S3x96x64 .f32) (main_arg3 : FVec F S64 .f32) (main_arg4 : FVec F S3x64x64 .f32) (main_arg5 : FVec F S64 .f32) (main_arg6 : FVec F S3x64x32 .f32) (main_arg7 : FVec F S32 .f32) : IVec S_ 1 :=
  let main_v0 : FVec F S8x1024x12x8 .f32 := Host.absf main_arg0
  let main_cst : FVec F S_ .f32 := constant S_ .f32 0x7F800000#32
  let main_v1 : FVec F S8x1024x12x8 .f32 := broadcastInDim S8x1024x12x8 ![] bcast_S_S8x1024x12x8 main_cst
  let main_v2 : IVec S8x1024x12x8 1 := cmpf .olt main_v0 main_v1
  let main_c : IVec S_ 1 := constantI S_ 1 1#1
  let main_v3 : IVec S_ 1 := (fun x v => Host.reduce IntOp.andi x v reducesTo_S8x1024x12x8_S_d0_1_2_3 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S3x96x64 .f32 := Host.absf main_arg2
  let main_cst_2 : FVec F S_ .f32 := constant S_ .f32 0x7F800000#32
  let main_v10 : FVec F S3x96x64 .f32 := broadcastInDim S3x96x64 ![] bcast_S_S3x96x64 main_cst_2
  let main_v11 : IVec S3x96x64 1 := cmpf .olt main_v9 main_v10
  let main_c_3 : IVec S_ 1 := constantI S_ 1 1#1
  let main_v12 : IVec S_ 1 := (fun x v => Host.reduce IntOp.andi x v reducesTo_S3x96x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S8x1024x12x8 : Shape := ⟨4, ![8, 1024, 12, 8]⟩
abbrev S8x1024x1024 : Shape := ⟨3, ![8, 1024, 1024]⟩
abbrev S3x96x64 : Shape := ⟨3, ![3, 96, 64]⟩
abbrev S64 : Shape := ⟨1, ![64]⟩
abbrev S3x64x64 : Shape := ⟨3, ![3, 64, 64]⟩
abbrev S3x64x32 : Shape := ⟨3, ![3, 64, 32]⟩
abbrev S32 : Shape := ⟨1, ![32]⟩
abbrev S8x1024x96 : Shape := ⟨3, ![8, 1024, 96]⟩
abbrev S1x64 : Shape := ⟨2, ![1, 64]⟩
abbrev S1x32 : Shape := ⟨2, ![1, 32]⟩
abbrev S8x1024x32 : Shape := ⟨3, ![8, 1024, 32]⟩
abbrev S2x1024x1024 : Shape := ⟨3, ![2, 1024, 1024]⟩
abbrev S2x1024x96 : Shape := ⟨3, ![2, 1024, 96]⟩
abbrev S2x1024x32 : Shape := ⟨3, ![2, 1024, 32]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩
abbrev S1x1024 : Shape := ⟨2, ![1, 1024]⟩
abbrev S1x1024x96 : Shape := ⟨3, ![1, 1024, 96]⟩
abbrev S1024x96 : Shape := ⟨2, ![1024, 96]⟩
abbrev S1x96x64 : Shape := ⟨3, ![1, 96, 64]⟩
abbrev S96x64 : Shape := ⟨2, ![96, 64]⟩
abbrev S1024x64 : Shape := ⟨2, ![1024, 64]⟩
abbrev S1x64x64 : Shape := ⟨3, ![1, 64, 64]⟩
abbrev S64x64 : Shape := ⟨2, ![64, 64]⟩
abbrev S1x64x32 : Shape := ⟨3, ![1, 64, 32]⟩
abbrev S64x32 : Shape := ⟨2, ![64, 32]⟩
abbrev S1024x32 : Shape := ⟨2, ![1024, 32]⟩
abbrev S1x1024x32 : Shape := ⟨3, ![1, 1024, 32]⟩

abbrev nBuf : Space → Nat
  | .hbm => 13
  | .vmem => 12
  | .smem => 0
  | _ => 0

abbrev bufTy : (tb : Table) → Fin (tcTables nBuf tb) → BufTy
  | .hbm, ⟨0, _⟩ => ⟨S8x1024x12x8, .f32⟩
  | .hbm, ⟨1, _⟩ => ⟨S8x1024x1024, .f32⟩
  | .hbm, ⟨2, _⟩ => ⟨S3x96x64, .f32⟩
  | .hbm, ⟨3, _⟩ => ⟨S64, .f32⟩
  | .hbm, ⟨4, _⟩ => ⟨S3x64x64, .f32⟩
  | .hbm, ⟨5, _⟩ => ⟨S64, .f32⟩
  | .hbm, ⟨6, _⟩ => ⟨S3x64x32, .f32⟩
  | .hbm, ⟨7, _⟩ => ⟨S32, .f32⟩
  | .hbm, ⟨8, _⟩ => ⟨S8x1024x96, .f32⟩
  | .hbm, ⟨9, _⟩ => ⟨S1x64, .f32⟩
  | .hbm, ⟨10, _⟩ => ⟨S1x64, .f32⟩
  | .hbm, ⟨11, _⟩ => ⟨S1x32, .f32⟩
  | .hbm, ⟨12, _⟩ => ⟨S8x1024x32, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x96, .f32⟩
  | .local _ .vmem, ⟨3, _⟩ => ⟨S2x1024x96, .f32⟩
  | .local _ .vmem, ⟨4, _⟩ => ⟨S3x96x64, .f32⟩
  | .local _ .vmem, ⟨5, _⟩ => ⟨S1x64, .f32⟩
  | .local _ .vmem, ⟨6, _⟩ => ⟨S3x64x64, .f32⟩
  | .local _ .vmem, ⟨7, _⟩ => ⟨S1x64, .f32⟩
  | .local _ .vmem, ⟨8, _⟩ => ⟨S3x64x32, .f32⟩
  | .local _ .vmem, ⟨9, _⟩ => ⟨S1x32, .f32⟩
  | .local _ .vmem, ⟨10, _⟩ => ⟨S2x1024x32, .f32⟩
  | .local _ .vmem, ⟨11, _⟩ => ⟨S2x1024x32, .f32⟩
  | _, _ => ⟨S8x1024x12x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x1024x12x8_S8x1024x96 : S8x1024x12x8.ShapeCasts S8x1024x96
  shapeCasts_S64_S1x64 : S64.ShapeCasts S1x64
  shapeCasts_S32_S1x32 : S32.ShapeCasts S1x32
  iota_S1024x1024_d0_w32 : S1024x1024.Iotas .tc 32 [0]
  iota_S1024x1024_d1_w32 : S1024x1024.Iotas .tc 32 [1]
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1_S1x1024 : S1024x1.ShapeCasts S1x1024
  broadcasts_S1x1024_S1024x1024 : S1x1024.Broadcasts S1024x1024
  bitsLt_bf16_f32 : FTy.bits .bf16 < FTy.bits .f32
  inb_S2x1024x1024_S1x1024x1024_1_0_0 : ∀ a, (![1, 0, 0] : Fin 3 → Nat) a + S1x1024x1024.size a ≤ S2x1024x1024.size a
  inb_S2x1024x96_S1x1024x96_0_0_0 : ∀ a, (![0, 0, 0] : Fin 3 → Nat) a + S1x1024x96.size a ≤ S2x1024x96.size a
  h_S1x1024x96 : 0 < S1x1024x96.numel
  shapeCasts_S1x1024x96_S1024x96 : S1x1024x96.ShapeCasts S1024x96
  inb_S2x1024x96_S1x1024x96_1_0_0 : ∀ a, (![1, 0, 0] : Fin 3 → Nat) a + S1x1024x96.size a ≤ S2x1024x96.size a
  inb_S3x96x64_S1x96x64_0_0_0 : ∀ a, (![0, 0, 0] : Fin 3 → Nat) a + S1x96x64.size a ≤ S3x96x64.size a
  h_S1x96x64 : 0 < S1x96x64.numel
  shapeCasts_S1x96x64_S96x64 : S1x96x64.ShapeCasts S96x64
  inb_S3x96x64_S1x96x64_2_0_0 : ∀ a, (![2, 0, 0] : Fin 3 → Nat) a + S1x96x64.size a ≤ S3x96x64.size a
  inb_S3x96x64_S1x96x64_1_0_0 : ∀ a, (![1, 0, 0] : Fin 3 → Nat) a + S1x96x64.size a ≤ S3x96x64.size a
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S1024x64 : S1x64.Broadcasts S1024x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_2_0_0 : ∀ a, (![2, 0, 0] : Fin 3 → Nat) a + S1x64x64.size a ≤ S3x64x64.size a
  inb_S3x64x64_S1x64x64_1_0_0 : ∀ a, (![1, 0, 0] : Fin 3 → Nat) a + S1x64x64.size a ≤ S3x64x64.size a
  inb_S3x64x32_S1x64x32_0_0_0 : ∀ a, (![0, 0, 0] : Fin 3 → Nat) a + S1x64x32.size a ≤ S3x64x32.size a
  h_S1x64x32 : 0 < S1x64x32.numel
  shapeCasts_S1x64x32_S64x32 : S1x64x32.ShapeCasts S64x32
  inb_S3x64x32_S1x64x32_2_0_0 : ∀ a, (![2, 0, 0] : Fin 3 → Nat) a + S1x64x32.size a ≤ S3x64x32.size a
  inb_S3x64x32_S1x64x32_1_0_0 : ∀ a, (![1, 0, 0] : Fin 3 → Nat) a + S1x64x32.size a ≤ S3x64x32.size a
  inb_S1x32_S1x32_0_0 : ∀ a, (![0, 0] : Fin 2 → Nat) a + S1x32.size a ≤ S1x32.size a
  h_S1x32 : 0 < S1x32.numel
  shapeCasts_S1x32_S32 : S1x32.ShapeCasts S32
  broadcasts_S1x32_S1024x32 : S1x32.Broadcasts S1024x32
  inb_S2x1024x32_S1x1024x32_0_0_0 : ∀ a, (![0, 0, 0] : Fin 3 → Nat) a + S1x1024x32.size a ≤ S2x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  inb_S2x1024x32_S1x1024x32_1_0_0 : ∀ a, (![1, 0, 0] : Fin 3 → Nat) a + S1x1024x32.size a ≤ S2x1024x32.size a
  dot_S1024x1024_S1024x96_S1024x96_1_0_0_1_n_n_wf : DotDims.WF S1024x1024 S1024x96 S1024x96 [1] [0] [0] [1] [] []
  dot_S1024x96_S96x64_S1024x64_1_0_0_1_n_n_wf : DotDims.WF S1024x96 S96x64 S1024x64 [1] [0] [0] [1] [] []
  dot_S1024x1024_S1024x64_S1024x64_1_0_0_1_n_n_wf : DotDims.WF S1024x1024 S1024x64 S1024x64 [1] [0] [0] [1] [] []
  dot_S1024x64_S64x64_S1024x64_1_0_0_1_n_n_wf : DotDims.WF S1024x64 S64x64 S1024x64 [1] [0] [0] [1] [] []
  dot_S1024x64_S64x32_S1024x32_1_0_0_1_n_n_wf : DotDims.WF S1024x64 S64x32 S1024x32 [1] [0] [0] [1] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S8x1024x1024.size a
  hwx0_0 : ∀ i : grid0.Coords, EltTy.bits .f32 = 32 ∨ (Rect.block (s := S8x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x96.size a ≤ S8x1024x96.size a
  hwx0_1 : ∀ i : grid0.Coords, EltTy.bits .f32 = 32 ∨ (Rect.block (s := S8x1024x96) S2x1024x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x96x64.size a ≤ S3x96x64.size a
  hwx0_2 : ∀ i : grid0.Coords, EltTy.bits .f32 = 32 ∨ (Rect.block (s := S3x96x64) S3x96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64x64.size a ≤ S3x64x64.size a
  hwx0_4 : ∀ i : grid0.Coords, EltTy.bits .f32 = 32 ∨ (Rect.block (s := S3x64x64) S3x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64x32.size a ≤ S3x64x32.size a
  hwx0_6 : ∀ i : grid0.Coords, EltTy.bits .f32 = 32 ∨ (Rect.block (s := S3x64x32) S3x64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1024x32.size a ≤ S8x1024x32.size a
  hwx0_8 : ∀ i : grid0.Coords, EltTy.bits .f32 = 32 ∨ (Rect.block (s := S8x1024x32) S2x1024x32.size (cc0_transform_8 i) (hinb0_8 i)).WholeWords (EltTy.packing .f32)

variable [Facts₀]

def dot_S1024x1024_S1024x96_S1024x96_1_0_0_1_n_n : DotDims S1024x1024 S1024x96 S1024x96 where
  lhsContracting := [1]
  rhsContracting := [0]
  lhsNonContracting := [0]
  rhsNonContracting := [1]
  lhsBatch := []
  rhsBatch := []
  wf := dot_S1024x1024_S1024x96_S1024x96_1_0_0_1_n_n_wf
def dot_S1024x96_S96x64_S1024x64_1_0_0_1_n_n : DotDims S1024x96 S96x64 S1024x64 where
  lhsContracting := [1]
  rhsContracting := [0]
  lhsNonContracting := [0]
  rhsNonContracting := [1]
  lhsBatch := []
  rhsBatch := []
  wf := dot_S1024x96_S96x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg1) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1024x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2x1024x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x1024x12x8 : Shape := ⟨4, ![8, 1024, 12, 8]⟩
abbrev S8x1024x1024 : Shape := ⟨3, ![8, 1024, 1024]⟩
abbrev S3x96x64 : Shape := ⟨3, ![3, 96, 64]⟩
abbrev S64 : Shape := ⟨1, ![64]⟩
abbrev S3x64x64 : Shape := ⟨3, ![3, 64, 64]⟩
abbrev S3x64x32 : Shape := ⟨3, ![3, 64, 32]⟩
abbrev S32 : Shape := ⟨1, ![32]⟩
abbrev S8x1024x96 : Shape := ⟨3, ![8, 1024, 96]⟩
abbrev S1024x1024 : Shape := ⟨2, ![1024, 1024]⟩
abbrev S_ : Shape := ⟨0, ![]⟩
abbrev S1x1024x1024 : Shape := ⟨3, ![1, 1024, 1024]⟩
abbrev S8x1024 : Shape := ⟨2, ![8, 1024]⟩
abbrev S8x1024x1 : Shape := ⟨3, ![8, 1024, 1]⟩
abbrev S8x1x1024 : Shape := ⟨3, ![8, 1, 1024]⟩
abbrev S1x96x64 : Shape := ⟨3, ![1, 96, 64]⟩
abbrev S96x64 : Shape := ⟨2, ![96, 64]⟩
abbrev S8x1024x64 : Shape := ⟨3, ![8, 1024, 64]⟩
abbrev S1x1x64 : Shape := ⟨3, ![1, 1, 64]⟩
abbrev S1x64x64 : Shape := ⟨3, ![1, 64, 64]⟩
abbrev S64x64 : Shape := ⟨2, ![64, 64]⟩
abbrev S1x64x32 : Shape := ⟨3, ![1, 64, 32]⟩
abbrev S64x32 : Shape := ⟨2, ![64, 32]⟩
abbrev S8x1024x32 : Shape := ⟨3, ![8, 1024, 32]⟩
abbrev S1x1x32 : Shape := ⟨3, ![1, 1, 32]⟩

abbrev nBuf : Space → Nat
  | .hbm => 108
  | .vmem => 0
  | .smem => 0
  | _ => 0

abbrev bufTy : (tb : Table) → Fin (tcTables nBuf tb) → BufTy
  | .hbm, ⟨0, _⟩ => ⟨S8x1024x12x8, .f32⟩
  | .hbm, ⟨1, _⟩ => ⟨S8x1024x1024, .f32⟩
  | .hbm, ⟨2, _⟩ => ⟨S3x96x64, .f32⟩
  | .hbm, ⟨3, _⟩ => ⟨S64, .f32⟩
  | .hbm, ⟨4, _⟩ => ⟨S3x64x64, .f32⟩
  | .hbm, ⟨5, _⟩ => ⟨S64, .f32⟩
  | .hbm, ⟨6, _⟩ => ⟨S3x64x32, .f32⟩
  | .hbm, ⟨7, _⟩ => ⟨S32, .f32⟩
  | .hbm, ⟨8, _⟩ => ⟨S8x1024x96, .f32⟩
  | .hbm, ⟨9, _⟩ => ⟨S1024x1024, .i32⟩
  | .hbm, ⟨10, _⟩ => ⟨S1024x1024, .i32⟩
  | .hbm, ⟨11, _⟩ => ⟨S_, .i32⟩
  | .hbm, ⟨12, _⟩ => ⟨S1024x1024, .i32⟩
  | .hbm, ⟨13, _⟩ => ⟨S1024x1024, .i32⟩
  | .hbm, ⟨14, _⟩ => ⟨S1024x1024, .i1⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1x1024x1024, .f32⟩
  | .hbm, ⟨20, _⟩ => ⟨S8x1024x1024, .f32⟩
  | .hbm, ⟨21, _⟩ => ⟨S8x1024x1024, .f32⟩
  | .hbm, ⟨22, _⟩ => ⟨S_, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .i1⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024x1, .f32⟩
  | .hbm, ⟨36, _⟩ => ⟨S8x1024x1024, .f32⟩
  | .hbm, ⟨37, _⟩ => ⟨S8x1024x1024, .f32⟩
  | .hbm, ⟨38, _⟩ => ⟨S8x1x1024, .f32⟩
  | .hbm, ⟨39, _⟩ => ⟨S8x1024x1024, .f32⟩
  | .hbm, ⟨40, _⟩ => ⟨S8x1024x1024, .f32⟩
  | .hbm, ⟨41, _⟩ => ⟨S8x1024x1024, .f32⟩
  | .hbm, ⟨42, _⟩ => ⟨S1x96x64, .f32⟩
  | .hbm, ⟨43, _⟩ => ⟨S96x64, .f32⟩
  | .hbm, ⟨44, _⟩ => ⟨S8x1024x64, .f32⟩
  | .hbm, ⟨45, _⟩ => ⟨S8x1024x96, .f32⟩
  | .hbm, ⟨46, _⟩ => ⟨S1x96x64, .f32⟩
  | .hbm, ⟨47, _⟩ => ⟨S96x64, .f32⟩
  | .hbm, ⟨48, _⟩ => ⟨S8x1024x64, .f32⟩
  | .hbm, ⟨49, _⟩ => ⟨S8x1024x64, .f32⟩
  | .hbm, ⟨50, _⟩ => ⟨S8x1024x96, .f32⟩
  | .hbm, ⟨51, _⟩ => ⟨S_, .f32⟩
  | .hbm, ⟨52, _⟩ => ⟨S8x1024x96, .f32⟩
  | .hbm, ⟨53, _⟩ => ⟨S8x1024x96, .f32⟩
  | .hbm, ⟨54, _⟩ => ⟨S8x1024x96, .f32⟩
  | .hbm, ⟨55, _⟩ => ⟨S1x96x64, .f32⟩
  | .hbm, ⟨56, _⟩ => ⟨S96x64, .f32⟩
  | .hbm, ⟨57, _⟩ => ⟨S8x1024x64, .f32⟩
  | .hbm, ⟨58, _⟩ => ⟨S8x1024x64, .f32⟩
  | .hbm, ⟨59, _⟩ => ⟨S1x1x64, .f32⟩
  | .hbm, ⟨60, _⟩ => ⟨S8x1024x64, .f32⟩
  | .hbm, ⟨61, _⟩ => ⟨S8x1024x64, .f32⟩
  | .hbm, ⟨62, _⟩ => ⟨S_, .f32⟩
  | .hbm, ⟨63, _⟩ => ⟨S8x1024x64, .f32⟩
  | .hbm, ⟨64, _⟩ => ⟨S8x1024x64, .f32⟩
  | .hbm, ⟨65, _⟩ => ⟨S1x64x64, .f32⟩
  | .hbm, ⟨66, _⟩ => ⟨S64x64, .f32⟩
  | .hbm, ⟨67, _⟩ => ⟨S8x1024x64, .f32⟩
  | .hbm, ⟨68, _⟩ => ⟨S8x1024x64, .f32⟩
  | .hbm, ⟨69, _⟩ => ⟨S1x64x64, .f32⟩
  | .hbm, ⟨70, _⟩ => ⟨S64x64, .f32⟩
  | .hbm, ⟨71, _⟩ => ⟨S8x1024x64, .f32⟩
  | .hbm, ⟨72, _⟩ => ⟨S8x1024x64, .f32⟩
  | .hbm, ⟨73, _⟩ => ⟨S8x1024x64, .f32⟩
  | .hbm, ⟨74, _⟩ => ⟨S_, .f32⟩
  | .hbm, ⟨75, _⟩ => ⟨S8x1024x64, .f32⟩
  | .hbm, ⟨76, _⟩ => ⟨S8x1024x64, .f32⟩
  | .hbm, ⟨77, _⟩ => ⟨S8x1024x64, .f32⟩
  | .hbm, ⟨78, _⟩ => ⟨S1x64x64, .f32⟩
  | .hbm, ⟨79, _⟩ => ⟨S64x64, .f32⟩
  | .hbm, ⟨80, _⟩ => ⟨S8x1024x64, .f32⟩
  | .hbm, ⟨81, _⟩ => ⟨S8x1024x64, .f32⟩
  | .hbm, ⟨82, _⟩ => ⟨S1x1x64, .f32⟩
  | .hbm, ⟨83, _⟩ => ⟨S8x1024x64, .f32⟩
  | .hbm, ⟨84, _⟩ => ⟨S8x1024x64, .f32⟩
  | .hbm, ⟨85, _⟩ => ⟨S_, .f32⟩
  | .hbm, ⟨86, _⟩ => ⟨S8x1024x64, .f32⟩
  | .hbm, ⟨87, _⟩ => ⟨S8x1024x64, .f32⟩
  | .hbm, ⟨88, _⟩ => ⟨S1x64x32, .f32⟩
  | .hbm, ⟨89, _⟩ => ⟨S64x32, .f32⟩
  | .hbm, ⟨90, _⟩ => ⟨S8x1024x32, .f32⟩
  | .hbm, ⟨91, _⟩ => ⟨S8x1024x64, .f32⟩
  | .hbm, ⟨92, _⟩ => ⟨S1x64x32, .f32⟩
  | .hbm, ⟨93, _⟩ => ⟨S64x32, .f32⟩
  | .hbm, ⟨94, _⟩ => ⟨S8x1024x32, .f32⟩
  | .hbm, ⟨95, _⟩ => ⟨S8x1024x32, .f32⟩
  | .hbm, ⟨96, _⟩ => ⟨S8x1024x64, .f32⟩
  | .hbm, ⟨97, _⟩ => ⟨S_, .f32⟩
  | .hbm, ⟨98, _⟩ => ⟨S8x1024x64, .f32⟩
  | .hbm, ⟨99, _⟩ => ⟨S8x1024x64, .f32⟩
  | .hbm, ⟨100, _⟩ => ⟨S8x1024x64, .f32⟩
  | .hbm, ⟨101, _⟩ => ⟨S1x64x32, .f32⟩
  | .hbm, ⟨102, _⟩ => ⟨S64x32, .f32⟩
  | .hbm, ⟨103, _⟩ => ⟨S8x1024x32, .f32⟩
  | .hbm, ⟨104, _⟩ => ⟨S8x1024x32, .f32⟩
  | .hbm, ⟨105, _⟩ => ⟨S1x1x32, .f32⟩
  | .hbm, ⟨106, _⟩ => ⟨S8x1024x32, .f32⟩
  | .hbm, ⟨107, _⟩ => ⟨S8x1024x32, .f32⟩
  | _, _ => ⟨S8x1024x12x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call2_cst : Ref sig .tc := ⟨.hbm, 85, rfl⟩
abbrev main_call2_v0 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_6 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]

class Facts₀ : Prop where
  shapeCasts_S8x1024x12x8_S8x1024x96 : S8x1024x12x8.ShapeCasts S8x1024x96
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  slices_S3x96x64_S1x96x64_0_0_0 : S3x96x64.Slices ![0, 0, 0] S1x96x64
  shapeCasts_S1x96x64_S96x64 : S1x96x64.ShapeCasts S96x64
  slices_S3x96x64_S1x96x64_1_0_0 : S3x96x64.Slices ![1, 0, 0] S1x96x64
  bcast_S_S8x1024x96 : S_.BroadcastsInDim S8x1024x96 (![] : Fin 0 → Fin S8x1024x96.rank)
  slices_S3x96x64_S1x96x64_2_0_0 : S3x96x64.Slices ![2, 0, 0] S1x96x64
  bcast_S64_S1x1x64_2 : S64.BroadcastsInDim S1x1x64 (![2] : Fin 1 → Fin S1x1x64.rank)
  bcast_S1x1x64_S8x1024x64_0_1_2 : S1x1x64.BroadcastsInDim S8x1024x64 (![0, 1, 2] : Fin 3 → Fin S8x1024x64.rank)
  bcast_S_S8x1024x64 : S_.BroadcastsInDim S8x1024x64 (![] : Fin 0 → Fin S8x1024x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  slices_S3x64x32_S1x64x32_0_0_0 : S3x64x32.Slices ![0, 0, 0] S1x64x32
  shapeCasts_S1x64x32_S64x32 : S1x64x32.ShapeCasts S64x32
  slices_S3x64x32_S1x64x32_1_0_0 : S3x64x32.Slices ![1, 0, 0] S1x64x32
  slices_S3x64x32_S1x64x32_2_0_0 : S3x64x32.Slices ![2, 0, 0] S1x64x32
  bcast_S32_S1x1x32_2 : S32.BroadcastsInDim S1x1x32 (![2] : Fin 1 → Fin S1x1x32.rank)
  bcast_S1x1x32_S8x1024x32_0_1_2 : S1x1x32.BroadcastsInDim S8x1024x32 (![0, 1, 2] : Fin 3 → Fin S8x1024x32.rank)
  dot_S8x1024x96_S96x64_S8x1024x64_2_0_01_1_n_n_wf : DotDims.WF S8x1024x96 S96x64 S8x1024x64 [2] [0] [0, 1] [1] [] []
  dot_S8x1024x1024_S8x1024x96_S8x1024x96_2_1_1_2_0_0_wf : DotDims.WF S8x1024x1024 S8x1024x96 S8x1024x96 [2] [1] [1] [2] [0] [0]
  dot_S8x1024x64_S64x64_S8x1024x64_2_0_01_1_n_n_wf : DotDims.WF S8x1024x64 S64x64 S8x1024x64 [2] [0] [0, 1] [1] [] []
  dot_S8x1024x1024_S8x1024x64_S8x1024x64_2_1_1_2_0_0_wf : DotDims.WF S8x1024x1024 S8x1024x64 S8x1024x64 [2] [1] [1] [2] [0] [0]
  dot_S8x1024x64_S64x32_S8x1024x32_2_0_01_1_n_n_wf : DotDims.WF S8x1024x64 S64x32 S8x1024x32 [2] [0] [0, 1] [1] [] []

variable [Facts₀]

def dot_S8x1024x96_S96x64_S8x1024x64_2_0_01_1_n_n : DotDims S8x1024x96 S96x64 S8x1024x64 where
  lhsContracting := [2]
  rhsContracting := [0]
  lhsNonContracting := [0, 1]
  rhsNonContracting := [1]
  lhsBatch := []
  rhsBatch := []
  wf := dot_S8x1024x96_S96x64_S8x1024x64_2_0_01_1_n_n_wf
def dot_S8x1024x1024_S8x1024x96_S8x1024x96_2_1_1_2_0_0 : DotDims S8x1024x1024 S8x1024x96 S8x1024x96 where
  lhsContracting := [2]
  rhsContracting := [1]
  lhsNonContracting := [1]
  rhsNonContracting := [2]
  lhsBatch := [0]
  rhsBatch := [0]
  wf := dot_S8x1024x1024_S8x1024x96_S8x1024x96_2_1_1_2_0_0_wf
def dot_S8x1024x64_S64x64_S8x1024x64_2_0_01_1_n_n : DotDims S8x1024x64 S64x64 S8x1024x64 where
  lhsContracting := [2]
  rhsContracting := [0]
  lhsNonContracting := [0, 1]
  rhsNonContracting := [1]
  lhsBatch := []
  rhsBatch := []
  wf := dot_S8x1024x64_S64x64_S8x1024x64_2_0_01_1_n_n_wf
def dot_S8x1024x1024_S8x1024x64_S8x1024x64_2_1_1_2_0_0 : DotDims S8x1024x1024 S8x1024x64 S8x1024x64 where
  lhsContracting := [2]
  rhsContracting := [1]
  lhsNonContracting := [1]
  rhsNonContracting := [2]
  lhsBatch := [0]
  rhsBatch := [0]
  wf := dot_S8x1024x1024_S8x1024x64_S8x1024x64_2_1_1_2_0_0_wf
def dot_S8x1024x64_S64x32_S8x1024x32_2_0_01_1_n_n : DotDims S8x1024x64 S64x32 S8x1024x32 where
  lhsContracting := [2]
  rhsContracting := [0]
  lhsNonContracting := [0, 1]
  rhsNonContracting := [1]
  lhsBatch := []
  rhsBatch := []
  wf := dot_S8x1024x64_S64x32_S8x1024x32_2_0_01_1_n_n_wf

class Facts : Prop extends Facts₀ where

variable [Facts]
-- ==== Proof.Spec.lean ====
/-
  A three-layer Chebyshev graph network on the extended reals, one graph at a time, in the two arrangements
  the two programs use.

  From an adjacency matrix `A` (n × n) the scaled Laplacian is `L = -D^(-1/2) A₀ D^(-1/2)`, where `A₀` is `A` with its
  diagonal removed, `D` the diagonal of `A₀`'s row sums, and `d^(-1/2)` is taken of `max d floor` where `d > 0` and
  is `0` elsewhere. A layer of order three with weights `W₀, W₁, W₂` and bias `b` maps features `h` to
  `h W₀ + (L h) W₁ + (2 L (L h) - h) W₂ + b`: the Chebyshev recurrence `T₀ = h`, `T₁ = L h`, `T₂ = 2 L T₁ - T₀`.
  One arrangement computes exactly that; the other computes `h (W₀ - W₂) + (L h) W₁ + 2 L ((L h) W₂) + b`, which
  is the same number whenever every entry is finite (distributivity and the associativity of the matrix product).
  The network is layer, `max · 0`, layer, `max · 0`, layer.

  This module only states the two arrangements, entry by entry; that they agree on finite data is the next module's.
-/
import Idealize.ShloMosaic.PureOps.Ideal
import Idealize.ShloMosaic.PureOps.Ideal.Laws
import Idealize.ShloMosaic.Lib.ValueIdx

noncomputable section

namespace Cert.ChebNet

open Idealize.ShloMosaic Idealize.ShloMosaic.ValueIdx

variable {n p q : ℕ}

/-- The matrix product on the extended reals. -/
def mm (P : Fin n → Fin p → EReal) (Q : Fin p → Fin q → EReal) : Fin n → Fin q → EReal :=
  fun r c => ∑ k : Fin p, P r k * Q k c

/-- The small positive floor put under a degree before the inverse square root. -/
def degFloor : EReal := Ideal.ofBits .f32 0x2B8CBCCC#32

/-- The factor of the recurrence's third term. -/
def twoLit : EReal := Ideal.ofBits .f32 0x40000000#32

/-- `d ↦ (max d floor)^(-1/2)` where the degree is positive, `0` elsewhere. -/
def dinv (d : EReal) : EReal := if 0 < d then Ideal.rsqrt (max d degFloor) else 0

/-- The adjacency without its diagonal, the diagonal SELECTED away. -/
def offSel (A : Fin n → Fin n → EReal) : Fin n → Fin n → EReal := fun r c => if r = c then 0 else A r c

/-- The adjacency without its diagonal, MULTIPLIED by one minus the identity matrix. -/
def offMul (A : Fin n → Fin n → EReal) : Fin n → Fin n → EReal :=
  fun r c => A r c * (1 - (if r = c then (1 : EReal) else 0))

/-- Row sums of the selected form. -/
def degSel (A : Fin n → Fin n → EReal) (r : Fin n) : EReal := ∑ c : Fin n, offSel A r c

/-- Row sums of the multiplied form, from an initial zero. -/
def degMul (A : Fin n → Fin n → EReal) (r : Fin n) : EReal := 0 + ∑ c : Fin n, offMul A r c

/-- The scaled Laplacian, first arrangement: `((0 - d_r) · a_rc) · d_c`. -/
def lapK (A : Fin n → Fin n → EReal) : Fin n → Fin n → EReal :=
  fun r c => ((0 - dinv (degSel A r)) * offSel A r c) * dinv (degSel A c)

/-- The scaled Laplacian, second arrangement: `-((d_r · a_rc) · d_c)`. -/
def lapR (A : Fin n → Fin n → EReal) : Fin n → Fin n → EReal :=
  fun r c => -((dinv (degMul A r) * offMul A r c) * dinv (degMul A c))

/-- One layer, first arrangement: `h (W₀ - W₂) + (L h) W₁ + 2 · L ((L h) W₂) + b`. -/
def layK (L : Fin n → Fin n → EReal) (h : Fin n → Fin p → EReal) (W : Fin 3 → Fin p → Fin q → EReal)
    (b : Fin q → EReal) : Fin n → Fin q → EReal :=
  fun r c => ((mm h (fun i o => W 0 i o - W 2 i o) r c + mm (mm L h) (W 1) r c)
    + twoLit * mm L (mm (mm L h) (W 2)) r c) + b c

/-- One layer, second arrangement: `h W₀ + (L h) W₁ + (2 · L (L h) - h) W₂ + b`. -/
def layR (L : Fin n → Fin n → EReal) (h : Fin n → Fin p → EReal) (W : Fin 3 → Fin p → Fin q → EReal)
    (b : Fin q → EReal) : Fin n → Fin q → EReal :=
  fun r c => ((mm h (W 0) r c + mm (mm L h) (W 1) r c)
    + mm (fun r i => twoLit * mm L (mm L h) r i - h r i) (W 2) r c) + b c

/-- The positive part, entry by entry. -/
def relu (h : Fin n → Fin p → EReal) : Fin n → Fin p → EReal := fun r c => max (h r c) 0

variable {p₁ p₂ p₃ : ℕ}

/-- The network, first arrangement. -/
def netK (A : Fin n → Fin n → EReal) (X : Fin n → Fin p → EReal)
    (W1 : Fin 3 → Fin p → Fin p₁ → EReal) (b1 : Fin p₁ → EReal)
    (W2 : Fin 3 → Fin p₁ → Fin p₂ → EReal) (b2 : Fin p₂ → EReal)
    (W3 : Fin 3 → Fin p₂ → Fin p₃ → EReal) (b3 : Fin p₃ → EReal) : Fin n → Fin p₃ → EReal :=
  layK (lapK A) (relu (layK (lapK A) (relu (layK (lapK A) X W1 b1)) W2 b2)) W3 b3

/-- The network, second arrangement. -/
def netR (A : Fin n → Fin n → EReal) (X : Fin n → Fin p → EReal)
    (W1 : Fin 3 → Fin p → Fin p₁ → EReal) (b1 : Fin p₁ → EReal)
    (W2 : Fin 3 → Fin p₁ → Fin p₂ → EReal) (b2 : Fin p₂ → EReal)
    (W3 : Fin 3 → Fin p₂ → Fin p₃ → EReal) (b3 : Fin p₃ → EReal) : Fin n → Fin p₃ → EReal :=
  layR (lapR A) (relu (layR (lapR A) (relu (layR (lapR A) X W1 b1)) W2 b2)) W3 b3

/-- The whole result array [8, 1024, 32], first arrangement: graph `g` of the batch is the network of the `g`-th
    adjacency [1024, 1024] and the `g`-th feature matrix [1024, 96] (the features already laid out as [8, 1024, 96]),
    with the shared weights [3, ·, ·] and biases. -/
def wholeK (X : (⟨3, ![8, 1024, 96]⟩ : Shape).Idx → EReal) (A : (⟨3, ![8, 1024, 1024]⟩ : Shape).Idx → EReal)
    (W1 : (⟨3, ![3, 96, 64]⟩ : Shape).Idx → EReal) (b1 : (⟨1, ![64]⟩ : Shape).Idx → EReal)
    (W2 : (⟨3, ![3, 64, 64]⟩ : Shape).Idx → EReal) (b2 : (⟨1, ![64]⟩ : Shape).Idx → EReal)
    (W3 : (⟨3, ![3, 64, 32]⟩ : Shape).Idx → EReal) (b3 : (⟨1, ![32]⟩ : Shape).Idx → EReal) :
    (⟨3, ![8, 1024, 32]⟩ : Shape).Idx → EReal :=
  fun i => netK (fun r c => A (ix3 (i 0) r c)) (fun r k => X (ix3 (i 0) r k))
    (fun k a o => W1 (ix3 k a o)) (fun o => b1 (ix1 o)) (fun k a o => W2 (ix3 k a o)) (fun o => b2 (ix1 o))
    (fun k a o => W3 (ix3 k a o)) (fun o => b3 (ix1 o)) (i 1) (i 2)

/-- The whole result array, second arrangement. -/
def wholeR (X : (⟨3, ![8, 1024, 96]⟩ : Shape).Idx → EReal) (A : (⟨3, ![8, 1024, 1024]⟩ : Shape).Idx → EReal)
    (W1 : (⟨3, ![3, 96, 64]⟩ : Shape).Idx → EReal) (b1 : (⟨1, ![64]⟩ : Shape).Idx → EReal)
    (W2 : (⟨3, ![3, 64, 64]⟩ : Shape).Idx → EReal) (b2 : (⟨1, ![64]⟩ : Shape).Idx → EReal)
    (W3 : (⟨3, ![3, 64, 32]⟩ : Shape).Idx → EReal) (b3 : (⟨1, ![32]⟩ : Shape).Idx → EReal) :
    (⟨3, ![8, 1024, 32]⟩ : Shape).Idx → EReal :=
  fun i => netR (fun r c => A (ix3 (i 0) r c)) (fun r k => X (ix3 (i 0) r k))
    (fun k a o => W1 (ix3 k a o)) (fun o => b1 (ix1 o)) (fun k a o => W2 (ix3 k a o)) (fun o => b2 (ix1 o))
    (fun k a o => W3 (ix3 k a o)) (fun o => b3 (ix1 o)) (i 1) (i 2)

/-- A selection on the "greater than" comparison of extended reals is an `if` on the order. -/
theorem select_ogt (d z a b : EReal) :
    Scalar.select (Ideal.cmp .ogt d z) a b = if z < d then a else b := by
  unfold Scalar.select Ideal.cmp
  by_cases h : z < d <;> simp [h]

end Cert.ChebNet

end
-- ==== Proof.Algebra.lean ====
/-
  The two arrangements of the Chebyshev graph network agree on finite data.

  When every entry of the adjacency, the features, the weights and the biases is a real number, every intermediate
  value of either arrangement is a real number too: a sum of products of reals is real, the degree floor is a positive
  real, so the inverse square root is taken of a positive real, and `max · 0` of a real is real. On reals the two
  Laplacians agree by the sign rule `((0 - d) a) d' = -((d a) d')`, and the two layers agree because the matrix
  product distributes over the difference `W₀ - W₂` and is associative: `L ((L h) W₂) = (L (L h)) W₂`.
-/
import proofs.«153474_g3504693314081_cont_8to1_b_212_24_alg».proof.Proof.Spec

noncomputable section

namespace Cert.ChebNet

open Idealize.ShloMosaic

variable {n p q : ℕ}

/-- The embedding of the reals commutes with finite sums. -/
@[simp, norm_cast] theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The embedding of the reals commutes with `max`. -/
theorem coe_max (a b : ℝ) : ((max a b : ℝ) : EReal) = max (a : EReal) (b : EReal) :=
  EReal.coe_strictMono.monotone.map_max

/-! ## The literals -/

/-- The degree floor is a positive real. -/
theorem degFloor_real : ∃ f : ℝ, 0 < f ∧ degFloor = (f : EReal) := by
  refine ⟨(2 ^ 23 + 834764 : ℕ) * (2 : ℝ) ^ ((87 : ℤ) - 127 - 23), by positivity, ?_⟩
  simp [degFloor, Ideal.ofBits, Ideal.ieee, -EReal.coe_mul]

/-- The factor of the recurrence's third term is a real. -/
theorem twoLit_real : ∃ t : ℝ, twoLit = (t : EReal) := by
  refine ⟨(2 ^ 23 + 0 : ℕ) * (2 : ℝ) ^ ((128 : ℤ) - 127 - 23), ?_⟩
  simp [twoLit, Ideal.ofBits, Ideal.ieee, -EReal.coe_mul]

/-! ## The Laplacian on reals -/

/-- The adjacency without its diagonal, on reals. -/
def offReal (A : Fin n → Fin n → ℝ) (r c : Fin n) : ℝ := if r = c then 0 else A r c

/-- `d ↦ (max d f)^(-1/2)` where `d > 0`, else `0`, on reals. -/
def dinvReal (f d : ℝ) : ℝ := if 0 < d then (Real.sqrt (max d f))⁻¹ else 0

/-- The scaled Laplacian on reals. -/
def lapReal (f : ℝ) (A : Fin n → Fin n → ℝ) (r c : Fin n) : ℝ :=
  -((dinvReal f (∑ k, offReal A r k) * offReal A r c) * dinvReal f (∑ k, offReal A c k))

theorem offSel_coe (A : Fin n → Fin n → ℝ) :
    offSel (fun r c => (A r c : EReal)) = fun r c => (offReal A r c : EReal) := by
  funext r c; unfold offSel offReal; split <;> simp

theorem offMul_coe (A : Fin n → Fin n → ℝ) :
    offMul (fun r c => (A r c : EReal)) = fun r c => (offReal A r c : EReal) := by
  funext r c; unfold offMul offReal
  split
  · rw [← EReal.coe_one, ← EReal.coe_sub, sub_self, EReal.coe_zero, mul_zero]
  · simp

/-- The inverse square root of a real. -/
theorem rsqrt_coe (x : ℝ) :
    Ideal.rsqrt (x : EReal) = if x < 0 then ⊥ else if x = 0 then ⊤ else (((Real.sqrt x)⁻¹ : ℝ) : EReal) := rfl

theorem dinv_coe (f : ℝ) (hf : 0 < f) (hfl : degFloor = (f : EReal)) (d : ℝ) :
    dinv (d : EReal) = (dinvReal f d : EReal) := by
  unfold dinv dinvReal
  rw [hfl, ← coe_max]
  by_cases h : 0 < d
  · have hm : 0 < max d f := lt_max_of_lt_left h
    rw [if_pos h, if_pos (by exact_mod_cast h)]
    rw [rsqrt_coe, if_neg (not_lt.mpr hm.le), if_neg hm.ne']
  · rw [if_neg h, if_neg (by exact_mod_cast h)]; simp

theorem lapK_coe (f : ℝ) (hf : 0 < f) (hfl : degFloor = (f : EReal)) (A : Fin n → Fin n → ℝ) :
    lapK (fun r c => (A r c : EReal)) = fun r c => (lapReal f A r c : EReal) := by
  funext r c
  unfold lapK degSel
  rw [offSel_coe]
  simp only [← coe_sum, dinv_coe f hf hfl]
  unfold lapReal
  norm_cast
  ring

theorem lapR_coe (f : ℝ) (hf : 0 < f) (hfl : degFloor = (f : EReal)) (A : Fin n → Fin n → ℝ) :
    lapR (fun r c => (A r c : EReal)) = fun r c => (lapReal f A r c : EReal) := by
  funext r c
  unfold lapR degMul
  rw [offMul_coe]
  simp only [← coe_sum, zero_add, dinv_coe f hf hfl]
  unfold lapReal
  norm_cast

/-! ## A layer on reals -/

/-- A layer on reals, first arrangement. -/
def layRealK (t : ℝ) (L : Fin n → Fin n → ℝ) (h : Fin n → Fin p → ℝ) (W : Fin 3 → Fin p → Fin q → ℝ) (b : Fin q → ℝ)
    (r : Fin n) (c : Fin q) : ℝ :=
  ((∑ i, h r i * (W 0 i c - W 2 i c) + ∑ i, (∑ m, L r m * h m i) * W 1 i c)
    + t * ∑ m, L r m * ∑ i, (∑ m', L m m' * h m' i) * W 2 i c) + b c

/-- A layer on reals, second arrangement. -/
def layRealR (t : ℝ) (L : Fin n → Fin n → ℝ) (h : Fin n → Fin p → ℝ) (W : Fin 3 → Fin p → Fin q → ℝ) (b : Fin q → ℝ)
    (r : Fin n) (c : Fin q) : ℝ :=
  ((∑ i, h r i * W 0 i c + ∑ i, (∑ m, L r m * h m i) * W 1 i c)
    + ∑ i, (t * (∑ m, L r m * ∑ m', L m m' * h m' i) - h r i) * W 2 i c) + b c

/-- Distributivity over `W₀ - W₂` and associativity of the matrix product. -/
theorem layReal_eq (t : ℝ) (L : Fin n → Fin n → ℝ) (h : Fin n → Fin p → ℝ) (W : Fin 3 → Fin p → Fin q → ℝ)
    (b : Fin q → ℝ) (r : Fin n) (c : Fin q) : layRealK t L h W b r c = layRealR t L h W b r c := by
  unfold layRealK layRealR
  have e1 : ∑ i, h r i * (W 0 i c - W 2 i c) = ∑ i, h r i * W 0 i c - ∑ i, h r i * W 2 i c := by
    rw [← Finset.sum_sub_distrib]; exact Finset.sum_congr rfl fun i _ => mul_sub _ _ _
  have e2 : ∑ i, (t * (∑ m, L r m * ∑ m', L m m' * h m' i) - h r i) * W 2 i c
      = t * (∑ i, (∑ m, L r m * ∑ m', L m m' * h m' i) * W 2 i c) - ∑ i, h r i * W 2 i c := by
    rw [Finset.mul_sum, ← Finset.sum_sub_distrib]; exact Finset.sum_congr rfl fun i _ => by ring
  have e3 : ∑ i, (∑ m, L r m * ∑ m', L m m' * h m' i) * W 2 i c
      = ∑ m, L r m * ∑ i, (∑ m', L m m' * h m' i) * W 2 i c := by
    calc ∑ i, (∑ m, L r m * ∑ m', L m m' * h m' i) * W 2 i c
        = ∑ i, ∑ m, L r m * ((∑ m', L m m' * h m' i) * W 2 i c) :=
          Finset.sum_congr rfl fun i _ => by
            rw [Finset.sum_mul]; exact Finset.sum_congr rfl fun m _ => mul_assoc _ _ _
      _ = ∑ m, ∑ i, L r m * ((∑ m', L m m' * h m' i) * W 2 i c) := Finset.sum_comm
      _ = ∑ m, L r m * ∑ i, (∑ m', L m m' * h m' i) * W 2 i c :=
          Finset.sum_congr rfl fun m _ => (Finset.mul_sum _ _ _).symm
  rw [e1, e2, e3]; ring

theorem layK_coe (t : ℝ) (ht : twoLit = (t : EReal)) (L : Fin n → Fin n → ℝ) (h : Fin n → Fin p → ℝ)
    (W : Fin 3 → Fin p → Fin q → ℝ) (b : Fin q → ℝ) :
    layK (fun r c => (L r c : EReal)) (fun r c => (h r c : EReal)) (fun k i o => (W k i o : EReal)) (fun o => (b o : EReal))
      = fun r c => (layRealK t L h W b r c : EReal) := by
  funext r c
  simp only [layK, mm, layRealK, ht]
  push_cast
  rfl

theorem layR_coe (t : ℝ) (ht : twoLit = (t : EReal)) (L : Fin n → Fin n → ℝ) (h : Fin n → Fin p → ℝ)
    (W : Fin 3 → Fin p → Fin q → ℝ) (b : Fin q → ℝ) :
    layR (fun r c => (L r c : EReal)) (fun r c => (h r c : EReal)) (fun k i o => (W k i o : EReal)) (fun o => (b o : EReal))
      = fun r c => (layRealR t L h W b r c : EReal) := by
  funext r c
  simp only [layR, mm, layRealR, ht]
  push_cast
  rfl

theorem relu_coe (h : Fin n → Fin p → ℝ) :
    relu (fun r c => (h r c : EReal)) = fun r c => ((max (h r c) 0 : ℝ) : EReal) := by
  funext r c; simp only [relu, coe_max, EReal.coe_zero]

/-! ## The network -/

variable {p₁ p₂ p₃ : ℕ}

/-- On finite data the two arrangements of the network are one function. -/
theorem netK_eq_netR (A : Fin n → Fin n → EReal) (X : Fin n → Fin p → EReal)
    (W1 : Fin 3 → Fin p → Fin p₁ → EReal) (b1 : Fin p₁ → EReal)
    (W2 : Fin 3 → Fin p₁ → Fin p₂ → EReal) (b2 : Fin p₂ → EReal)
    (W3 : Fin 3 → Fin p₂ → Fin p₃ → EReal) (b3 : Fin p₃ → EReal)
    (hA : ∀ r c, ∃ x : ℝ, A r c = (x : EReal)) (hX : ∀ r c, ∃ x : ℝ, X r c = (x : EReal))
    (hW1 : ∀ k i o, ∃ x : ℝ, W1 k i o = (x : EReal)) (hb1 : ∀ o, ∃ x : ℝ, b1 o = (x : EReal))
    (hW2 : ∀ k i o, ∃ x : ℝ, W2 k i o = (x : EReal)) (hb2 : ∀ o, ∃ x : ℝ, b2 o = (x : EReal))
    (hW3 : ∀ k i o, ∃ x : ℝ, W3 k i o = (x : EReal)) (hb3 : ∀ o, ∃ x : ℝ, b3 o = (x : EReal)) :
    netK A X W1 b1 W2 b2 W3 b3 = netR A X W1 b1 W2 b2 W3 b3 := by
  obtain ⟨f, hf, hfl⟩ := degFloor_real
  obtain ⟨t, ht⟩ := twoLit_real
  choose A' hA' using hA
  choose X' hX' using hX
  choose W1' hW1' using hW1
  choose b1' hb1' using hb1
  choose W2' hW2' using hW2
  choose b2' hb2' using hb2
  choose W3' hW3' using hW3
  choose b3' hb3' using hb3
  obtain rfl : A = fun r c => (A' r c : EReal) := funext fun r => funext fun c => hA' r c
  obtain rfl : X = fun r c => (X' r c : EReal) := funext fun r => funext fun c => hX' r c
  obtain rfl : W1 = fun k i o => (W1' k i o : EReal) := funext fun k => funext fun i => funext fun o => hW1' k i o
  obtain rfl : b1 = fun o => (b1' o : EReal) := funext fun o => hb1' o
  obtain rfl : W2 = fun k i o => (W2' k i o : EReal) := funext fun k => funext fun i => funext fun o => hW2' k i o
  obtain rfl : b2 = fun o => (b2' o : EReal) := funext fun o => hb2' o
  obtain rfl : W3 = fun k i o => (W3' k i o : EReal) := funext fun k => funext fun i => funext fun o => hW3' k i o
  obtain rfl : b3 = fun o => (b3' o : EReal) := funext fun o => hb3' o
  unfold netK netR
  rw [lapK_coe f hf hfl, lapR_coe f hf hfl]
  rw [layK_coe t ht, layR_coe t ht, relu_coe, relu_coe]
  simp only [layReal_eq]
  rw [layK_coe t ht, layR_coe t ht, relu_coe, relu_coe]
  simp only [layReal_eq]
  rw [layK_coe t ht, layR_coe t ht]
  simp only [layReal_eq]

/-- A reshaped array of reals is an array of reals. -/
theorem shapeCast_real {s t : Shape} (x : s.Idx → EReal) (h : s.ShapeCasts t) (hx : ∀ i, ∃ r : ℝ, x i = (r : EReal)) :
    ∀ j, ∃ r : ℝ, shapeCast t x h j = (r : EReal) := fun _ => hx _

/-- On finite data the two arrangements of the whole result array are one function. -/
theorem wholeK_eq_wholeR (X : (⟨3, ![8, 1024, 96]⟩ : Shape).Idx → EReal) (A : (⟨3, ![8, 1024, 1024]⟩ : Shape).Idx → EReal)
    (W1 : (⟨3, ![3, 96, 64]⟩ : Shape).Idx → EReal) (b1 : (⟨1, ![64]⟩ : Shape).Idx → EReal)
    (W2 : (⟨3, ![3, 64, 64]⟩ : Shape).Idx → EReal) (b2 : (⟨1, ![64]⟩ : Shape).Idx → EReal)
    (W3 : (⟨3, ![3, 64, 32]⟩ : Shape).Idx → EReal) (b3 : (⟨1, ![32]⟩ : Shape).Idx → EReal)
    (hX : ∀ i, ∃ x : ℝ, X i = (x : EReal)) (hA : ∀ i, ∃ x : ℝ, A i = (x : EReal))
    (hW1 : ∀ i, ∃ x : ℝ, W1 i = (x : EReal)) (hb1 : ∀ i, ∃ x : ℝ, b1 i = (x : EReal))
    (hW2 : ∀ i, ∃ x : ℝ, W2 i = (x : EReal)) (hb2 : ∀ i, ∃ x : ℝ, b2 i = (x : EReal))
    (hW3 : ∀ i, ∃ x : ℝ, W3 i = (x : EReal)) (hb3 : ∀ i, ∃ x : ℝ, b3 i = (x : EReal)) :
    wholeK X A W1 b1 W2 b2 W3 b3 = wholeR X A W1 b1 W2 b2 W3 b3 := by
  funext i
  unfold wholeK wholeR
  rw [netK_eq_netR _ _ _ _ _ _ _ _ (fun _ _ => hA _) (fun _ _ => hX _) (fun _ _ _ => hW1 _) (fun _ => hb1 _)
    (fun _ _ _ => hW2 _) (fun _ => hb2 _) (fun _ _ _ => hW3 _) (fun _ => hb3 _)]

end Cert.ChebNet

end
-- ==== Proof.Finite.lean ====
/-
  Finiteness of the inputs, read back from the precondition. The precondition takes, for each of the eight argument
  arrays, the absolute value of every entry, compares it (strictly less) with the pattern 0x7F800000 — which denotes
  +∞ — reduces the comparisons by `and` over all axes starting from 1, and conjoins the eight results. At the ideal
  instance a float is an extended real and |x| is `max x (-x)`; so the precondition being 1 says that every entry x of
  every argument has max x (-x) < ⊤, which excludes x = ⊤ and x = ⊥: every entry is (the coercion of) a real number.
-/
import proofs.«153474_g3504693314081_cont_8to1_b_212_24_alg».proof.Defs
import proofs.«153474_g3504693314081_cont_8to1_b_212_24_alg».proof.Proof.Gen.Pre_finite_inputs
import Idealize.ShloMosaic.Lib.ReduceAll
import Idealize.ShloMosaic.Lib.IdealHost

noncomputable section

namespace Cert.ChebNet.Finite

open Idealize.ShloMosaic Idealize.ShloMosaic.ValueIdx

/-- The f32 pattern with all exponent bits set and a zero significand denotes +∞. -/
theorem inf_eq_top : Ideal.ofBits .f32 0x7F800000#32 = (⊤ : EReal) := by
  simp [Ideal.ofBits, Ideal.ieee]

/-- An extended real whose absolute value `max x (-x)` is strictly below +∞ is a real number:
    at x = ⊤ the maximum is ⊤, and at x = ⊥ it is -⊥ = ⊤, neither of which is below ⊤. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- The rank-0 shape has exactly one index (the empty tuple). -/
instance subsingleton_scalar_idx : Subsingleton Cert.Pre_finite_inputs.S_.Idx :=
  ⟨fun a b => funext fun d => d.elim0⟩

/-- One argument's test, for an array of any shape: if the `and`-reduction over all axes of the entrywise comparison
    |x i| < +∞ is 1, then the comparison is 1 at every index, so every entry of `x` is a real number. -/
theorem arr_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    ∀ i, ∃ r : ℝ, x i = (r : EReal) := by
  intro i
  have e := Host.reduce_andi_all _ _ hr hu ix0 h i
  rw [cmpf_apply, broadcastInDim_scalar_apply, constant_apply] at e
  exact real_of_abs_lt_inf (x i) e

open Cert.Pre_finite_inputs in
/-- The precondition decoded: it is the conjunction of the eight per-argument tests, so if it is 1 then every entry
    of each of the eight arguments is a real number. -/
theorem fn_finite [Cert.Pre_finite_inputs.Facts]
    (x0 : FVec Ideal S8x1024x12x8 .f32) (x1 : FVec Ideal S8x1024x1024 .f32)
    (x2 : FVec Ideal S3x96x64 .f32) (x3 : FVec Ideal S64 .f32) (x4 : FVec Ideal S3x64x64 .f32)
    (x5 : FVec Ideal S64 .f32) (x6 : FVec Ideal S3x64x32 .f32) (x7 : FVec Ideal S32 .f32)
    (h : Cert.Pre_finite_inputs.fn (F := Ideal) x0 x1 x2 x3 x4 x5 x6 x7 = (fun _ => 1#1)) :
    (∀ i, ∃ r : ℝ, x0 i = (r : EReal)) ∧ (∀ i, ∃ r : ℝ, x1 i = (r : EReal)) ∧
    (∀ i, ∃ r : ℝ, x2 i = (r : EReal)) ∧ (∀ i, ∃ r : ℝ, x3 i = (r : EReal)) ∧
    (∀ i, ∃ r : ℝ, x4 i = (r : EReal)) ∧ (∀ i, ∃ r : ℝ, x5 i = (r : EReal)) ∧
    (∀ i, ∃ r : ℝ, x6 i = (r : EReal)) ∧ (∀ i, ∃ r : ℝ, x7 i = (r : EReal)) := by
  have h0 := congrFun h ix0
  unfold Cert.Pre_finite_inputs.fn Cert.Pre_finite_inputs.fn_part1 Cert.Pre_finite_inputs.fn_part2 at h0
  dsimp only at h0
  -- the result is a left-nested `and` of the eight reductions: peel them off from the last to the first
  obtain ⟨h0, a7⟩ := IntOp.andi_eq_one.1 h0
  obtain ⟨h0, a6⟩ := IntOp.andi_eq_one.1 h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨a0, a1⟩ := IntOp.andi_eq_one.1 h0
  exact ⟨arr_finite x0 _ _ _ a0, arr_finite x1 _ _ _ a1, arr_finite x2 _ _ _ a2, arr_finite x3 _ _ _ a3,
    arr_finite x4 _ _ _ a4, arr_finite x5 _ _ _ a5, arr_finite x6 _ _ _ a6, arr_finite x7 _ _ _ a7⟩

open Idealize.SL.Sem in
/-- For a memory satisfying the kernel's precondition, on every device every entry of each of the eight argument
    buffers is a real number. -/
theorem finite_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Cert.KernelIdeal.S8x1024x12x8.Idx, ∃ r : ℝ, (m ((c.tc : Thread Cert.KernelIdeal.nD Cert.KernelIdeal.τ).loc Cert.KernelIdeal.main_arg0) : FVec Ideal Cert.KernelIdeal.S8x1024x12x8 .f32) i = (r : EReal)) ∧
    (∀ i : Cert.KernelIdeal.S8x1024x1024.Idx, ∃ r : ℝ, (m ((c.tc : Thread Cert.KernelIdeal.nD Cert.KernelIdeal.τ).loc Cert.KernelIdeal.main_arg1) : FVec Ideal Cert.KernelIdeal.S8x1024x1024 .f32) i = (r : EReal)) ∧
    (∀ i : Cert.KernelIdeal.S3x96x64.Idx, ∃ r : ℝ, (m ((c.tc : Thread Cert.KernelIdeal.nD Cert.KernelIdeal.τ).loc Cert.KernelIdeal.main_arg2) : FVec Ideal Cert.KernelIdeal.S3x96x64 .f32) i = (r : EReal)) ∧
    (∀ i : Cert.KernelIdeal.S64.Idx, ∃ r : ℝ, (m ((c.tc : Thread Cert.KernelIdeal.nD Cert.KernelIdeal.τ).loc Cert.KernelIdeal.main_arg3) : FVec Ideal Cert.KernelIdeal.S64 .f32) i = (r : EReal)) ∧
    (∀ i : Cert.KernelIdeal.S3x64x64.Idx, ∃ r : ℝ, (m ((c.tc : Thread Cert.KernelIdeal.nD Cert.KernelIdeal.τ).loc Cert.KernelIdeal.main_arg4) : FVec Ideal Cert.KernelIdeal.S3x64x64 .f32) i = (r : EReal)) ∧
    (∀ i : Cert.KernelIdeal.S64.Idx, ∃ r : ℝ, (m ((c.tc : Thread Cert.KernelIdeal.nD Cert.KernelIdeal.τ).loc Cert.KernelIdeal.main_arg5) : FVec Ideal Cert.KernelIdeal.S64 .f32) i = (r : EReal)) ∧
    (∀ i : Cert.KernelIdeal.S3x64x32.Idx, ∃ r : ℝ, (m ((c.tc : Thread Cert.KernelIdeal.nD Cert.KernelIdeal.τ).loc Cert.KernelIdeal.main_arg6) : FVec Ideal Cert.KernelIdeal.S3x64x32 .f32) i = (r : EReal)) ∧
    (∀ i : Cert.KernelIdeal.S32.Idx, ∃ r : ℝ, (m ((c.tc : Thread Cert.KernelIdeal.nD Cert.KernelIdeal.τ).loc Cert.KernelIdeal.main_arg7) : FVec Ideal Cert.KernelIdeal.S32 .f32) i = (r : EReal)) :=
  fn_finite _ _ _ _ _ _ _ _ (hpre c)

end Cert.ChebNet.Finite

end
-- ==== Proof.RefNet.lean ====
/-
  The reference program's result, read at an index, is the second arrangement of the network of the module Spec.

  The reference program is a straight line of array operations. Stage by stage, each array it writes is identified, as a
  FUNCTION of the index, with the corresponding entry of Spec: the adjacency without its diagonal (the product with one
  minus the identity matrix), its row sums, their inverse square roots, the scaled Laplacian, and then, for each of the
  three layers, the three matrix products of the Chebyshev recurrence, their sum with the bias, and the positive part.
  Nothing is computed here: every step is the reading of one operation at an index and the matching of index tuples.
-/
import proofs.«153474_g3504693314081_cont_8to1_b_212_24_alg».proof.Proof.RefReadPatched
import proofs.«153474_g3504693314081_cont_8to1_b_212_24_alg».proof.Proof.Spec
import Idealize.ShloMosaic.Lib.IdealHost
import Idealize.ShloMosaic.Lib.Affine

noncomputable section

namespace Cert.ChebNet.Ref

open Idealize.ShloMosaic Idealize.ShloMosaic.ValueIdx Cert.ReferenceIdeal Cert.ReferenceIdeal.Read Cert.ChebNet

/-- Graph `g`'s adjacency matrix, out of the batch of adjacencies. -/
abbrev adj (A : (⟨3, ![8, 1024, 1024]⟩ : Shape).Idx → EReal) (g : Fin 8) : Fin 1024 → Fin 1024 → EReal :=
  fun r c => A (ix3 g r c)

/-- A stack of three weight matrices by its three coordinates. -/
abbrev wts {p q : ℕ} (W : (⟨3, ![3, p, q]⟩ : Shape).Idx → EReal) : Fin 3 → Fin p → Fin q → EReal :=
  fun j a o => W (ix3 j a o)

/-- A bias vector by its coordinate. -/
abbrev bias {q : ℕ} (b : (⟨1, ![q]⟩ : Shape).Idx → EReal) : Fin q → EReal := fun o => b (ix1 o)

variable (x0 : FVec Ideal S8x1024x12x8 .f32) (x1 : FVec Ideal S8x1024x1024 .f32)
  (x2 : FVec Ideal S3x96x64 .f32) (x3 : FVec Ideal S64 .f32) (x4 : FVec Ideal S3x64x64 .f32) (x5 : FVec Ideal S64 .f32)
  (x6 : FVec Ideal S3x64x32 .f32) (x7 : FVec Ideal S32 .f32)

/-! ## The identity matrix, the adjacency without its diagonal, degrees, the Laplacian -/

/-- The comparison of a row number with a column number (both below 2³², so the 32-bit words compare as the numbers do),
    converted to a float, is the identity matrix's entry. -/
theorem eyeWord (r c : Fin 1024) :
    FloatOps.uitofp (F := Ideal) .f32
        (IntOp.cmpi .eq (IntOp.addi (BitVec.ofNat 32 r.val) 0#32) (BitVec.ofNat 32 c.val))
      = if r = c then (1 : EReal) else 0 := by
  have hr := r.isLt; have hc := c.isLt
  show (((IntOp.cmpi .eq (IntOp.addi (BitVec.ofNat 32 r.val) 0#32) (BitVec.ofNat 32 c.val)).toNat : ℝ) : EReal) = _
  by_cases h : r = c
  · subst h
    rw [if_pos rfl, IntOp.cmpi_eq.mpr (by simp [IntOp.addi])]
    norm_num
  · rw [if_neg h]
    have hne : ¬ (IntOp.addi (BitVec.ofNat 32 r.val) 0#32 = BitVec.ofNat 32 c.val) := by
      intro e
      apply h
      have := congrArg BitVec.toNat e
      simp [IntOp.addi, BitVec.toNat_ofNat] at this
      apply Fin.ext
      omega
    have : IntOp.cmpi .eq (IntOp.addi (BitVec.ofNat 32 r.val) 0#32) (BitVec.ofNat 32 c.val) = 0#1 :=
      eq_zero_of_ne_one (fun e => hne (IntOp.cmpi_eq.mp e))
    rw [this]
    norm_num

/-- One minus the identity matrix, repeated along the batch axis. -/
theorem v10_eq (i : S8x1024x1024.Idx) :
    val_main_v10 (F := Ideal) i = 1 - (fun r c : Fin 1024 => if r = c then (1 : EReal) else 0) (i 1) (i 2) := by
  rw [val_main_v10_apply, val_main_v9_apply, val_main_v8_apply, val_main_v7_apply, val_main_cst_apply,
    val_main_v6_apply, val_main_v5_apply, val_main_v4_apply, val_main_v1_apply, val_main_v2_apply,
    val_main_v3_apply, val_main_c_apply, Ideal.subf_def, Ideal.ofBits_def, Ideal.ofBits_one_f32]
  exact congrArg (fun t : EReal => 1 - t) (eyeWord (i 1) (i 2))

/-- The adjacency times one minus the identity. -/
theorem v11_eq : val_main_v11 (F := Ideal) x1 = fun i => offMul (adj x1 (i 0)) (i 1) (i 2) := by
  funext i
  rw [val_main_v11_apply, v10_eq, Ideal.mulf_def]
  exact congrArg (fun j => x1 j * (1 - (fun r c : Fin 1024 => if r = c then (1 : EReal) else 0) (i 1) (i 2)))
    (eq_ix3 i)

/-- Its row sums, from an initial zero. -/
theorem v12_eq : val_main_v12 (F := Ideal) x1 = fun i => degMul (adj x1 (i 0)) (i 1) := by
  funext i
  rw [val_main_v12_apply, val_main_cst_0_apply, Ideal.ofBits_def, Ideal.ofBits_zero_f32, v11_eq]
  rfl

/-- The inverse square roots of the degrees: a selection on `degree > 0`. -/
theorem v18_eq : val_main_v18 (F := Ideal) x1 = fun i => dinv (degMul (adj x1 (i 0)) (i 1)) := by
  funext i
  rw [val_main_v18_apply, val_main_v14_apply, val_main_v17_apply, val_main_v16_apply, val_main_v13_apply,
    val_main_cst_1_apply, val_main_v15_apply, val_main_cst_2_apply, val_main_call0_v1_apply,
    val_main_call0_v0_apply, val_main_cst_3_apply, v12_eq]
  simp only [Ideal.ofBits_def, Ideal.ofBits_zero_f32, Ideal.hostUnary_rsqrt_def, Ideal.maximumf_def]
  show Scalar.select (Ideal.cmp .ogt _ 0) _ 0 = _
  rw [select_ogt]
  rfl

/-- The scaled Laplacian: the row factor times the entry, times the column factor, negated. -/
theorem v25_eq : val_main_v25 (F := Ideal) x1 = fun i => lapR (adj x1 (i 0)) (i 1) (i 2) := by
  funext i
  rw [val_main_v25_apply, val_main_v24_apply, val_main_v21_apply, val_main_v20_apply, val_main_v19_apply,
    val_main_v23_apply, val_main_v22_apply, v18_eq, v11_eq, Ideal.hostNegf_def, Ideal.negf_def, Ideal.mulf_def,
    Ideal.mulf_def]
  rfl

/-! ## Layer 1: features of width 96 to width 64 -/

/-- The first weight matrix of the layer, cut out of the stack and flattened to rank two. -/
theorem v27_eq : val_main_v27 (F := Ideal) x2 = fun i => x2 (ix3 0 (i 0) (i 1)) := by
  funext i
  rw [val_main_v27_apply, val_main_v26_apply]
  refine congrArg x2 (funext fun a => Fin.ext ?_)
  have h0 : (i 0).val < 96 := (i 0).isLt
  have h1 : (i 1).val < 64 := (i 1).isLt
  match a with
  | ⟨0, _⟩ => rfl
  | ⟨1, _⟩ => show ((i 0).val * 64 + (i 1).val) / 64 % 96 = (i 0).val; omega
  | ⟨2, _⟩ => show ((i 0).val * 64 + (i 1).val) % 64 = (i 1).val; omega

/-- The second weight matrix of the layer, cut out of the stack and flattened to rank two. -/
theorem v31_eq : val_main_v31 (F := Ideal) x2 = fun i => x2 (ix3 1 (i 0) (i 1)) := by
  funext i
  rw [val_main_v31_apply, val_main_v30_apply]
  refine congrArg x2 (funext fun a => Fin.ext ?_)
  have h0 : (i 0).val < 96 := (i 0).isLt
  have h1 : (i 1).val < 64 := (i 1).isLt
  match a with
  | ⟨0, _⟩ => rfl
  | ⟨1, _⟩ => show ((i 0).val * 64 + (i 1).val) / 64 % 96 = (i 0).val; omega
  | ⟨2, _⟩ => show ((i 0).val * 64 + (i 1).val) % 64 = (i 1).val; omega

/-- The third weight matrix of the layer, cut out of the stack and flattened to rank two. -/
theorem v39_eq : val_main_v39 (F := Ideal) x2 = fun i => x2 (ix3 2 (i 0) (i 1)) := by
  funext i
  rw [val_main_v39_apply, val_main_v38_apply]
  refine congrArg x2 (funext fun a => Fin.ext ?_)
  have h0 : (i 0).val < 96 := (i 0).isLt
  have h1 : (i 1).val < 64 := (i 1).isLt
  match a with
  | ⟨0, _⟩ => rfl
  | ⟨1, _⟩ => show ((i 0).val * 64 + (i 1).val) / 64 % 96 = (i 0).val; omega
  | ⟨2, _⟩ => show ((i 0).val * 64 + (i 1).val) % 64 = (i 1).val; omega

/-- The bias, repeated along the batch and the node axes. -/
theorem v43_eq : val_main_v43 (F := Ideal) x3 = fun i => x3 (ix1 (i 2)) := by
  funext i
  rw [val_main_v43_apply, val_main_v42_apply]
  exact congrArg x3 (eq_ix1 _)

/-- `h W₀`. -/
theorem v28_eq (h : Fin 8 → Fin 1024 → Fin 96 → EReal)
    (hh : val_main_v0 (F := Ideal) x0 = fun i => h (i 0) (i 1) (i 2)) :
    val_main_v28 (F := Ideal) x0 x2 = fun i => mm (h (i 0)) (wts x2 0) (i 1) (i 2) := by
  funext i
  rw [val_main_v28_apply, hh, v27_eq]
  rfl

/-- `L h`, graph by graph. -/
theorem v29_eq (h : Fin 8 → Fin 1024 → Fin 96 → EReal)
    (hh : val_main_v0 (F := Ideal) x0 = fun i => h (i 0) (i 1) (i 2)) :
    val_main_v29 (F := Ideal) x0 x1 = fun i => mm (lapR (adj x1 (i 0))) (h (i 0)) (i 1) (i 2) := by
  funext i
  rw [val_main_v29_apply, v25_eq, hh]
  rfl

/-- `(L h) W₁`. -/
theorem v32_eq (h : Fin 8 → Fin 1024 → Fin 96 → EReal)
    (hh : val_main_v0 (F := Ideal) x0 = fun i => h (i 0) (i 1) (i 2)) :
    val_main_v32 (F := Ideal) x0 x1 x2 = fun i => mm (mm (lapR (adj x1 (i 0))) (h (i 0))) (wts x2 1) (i 1) (i 2) := by
  funext i
  rw [val_main_v32_apply, v29_eq x0 x1 h hh, v31_eq]
  rfl

/-- `L (L h)`. -/
theorem v34_eq (h : Fin 8 → Fin 1024 → Fin 96 → EReal)
    (hh : val_main_v0 (F := Ideal) x0 = fun i => h (i 0) (i 1) (i 2)) :
    val_main_v34 (F := Ideal) x0 x1 = fun i => mm (lapR (adj x1 (i 0))) (mm (lapR (adj x1 (i 0))) (h (i 0))) (i 1) (i 2) := by
  funext i
  rw [val_main_v34_apply, v25_eq, v29_eq x0 x1 h hh]
  rfl

/-- `2 · L (L h) - h`, the third term of the recurrence. -/
theorem v37_eq (h : Fin 8 → Fin 1024 → Fin 96 → EReal)
    (hh : val_main_v0 (F := Ideal) x0 = fun i => h (i 0) (i 1) (i 2)) :
    val_main_v37 (F := Ideal) x0 x1 = fun i => twoLit * mm (lapR (adj x1 (i 0))) (mm (lapR (adj x1 (i 0))) (h (i 0))) (i 1) (i 2) - h (i 0) (i 1) (i 2) := by
  funext i
  rw [val_main_v37_apply, val_main_v36_apply, val_main_v35_apply, val_main_cst_4_apply,
    v34_eq x0 x1 h hh, hh]
  rfl

/-- `(2 · L (L h) - h) W₂`. -/
theorem v40_eq (h : Fin 8 → Fin 1024 → Fin 96 → EReal)
    (hh : val_main_v0 (F := Ideal) x0 = fun i => h (i 0) (i 1) (i 2)) :
    val_main_v40 (F := Ideal) x0 x1 x2 = fun i => mm (fun r k => twoLit * mm (lapR (adj x1 (i 0))) (mm (lapR (adj x1 (i 0))) (h (i 0))) r k - h (i 0) r k)
      (wts x2 2) (i 1) (i 2) := by
  funext i
  rw [val_main_v40_apply, v37_eq x0 x1 h hh, v39_eq]
  rfl

/-- The layer: the three products added left to right, then the bias. -/
theorem v44_eq (h : Fin 8 → Fin 1024 → Fin 96 → EReal)
    (hh : val_main_v0 (F := Ideal) x0 = fun i => h (i 0) (i 1) (i 2)) :
    val_main_v44 (F := Ideal) x0 x1 x2 x3 = fun i => layR (lapR (adj x1 (i 0))) (h (i 0)) (wts x2) (bias x3) (i 1) (i 2) := by
  funext i
  rw [val_main_v44_apply, val_main_v41_apply, val_main_v33_apply, v28_eq x0 x2 h hh,
    v32_eq x0 x1 x2 h hh, v40_eq x0 x1 x2 h hh, v43_eq]
  rfl

/-- The positive part of the layer. -/
theorem v45_eq (h : Fin 8 → Fin 1024 → Fin 96 → EReal)
    (hh : val_main_v0 (F := Ideal) x0 = fun i => h (i 0) (i 1) (i 2)) :
    val_main_v45 (F := Ideal) x0 x1 x2 x3 = fun i => relu (layR (lapR (adj x1 (i 0))) (h (i 0)) (wts x2) (bias x3)) (i 1) (i 2) := by
  funext i
  rw [val_main_v45_apply, val_main_call1_v0_apply, val_main_call1_cst_apply,
    v44_eq x0 x1 x2 x3 h hh, Ideal.maximumf_def, Ideal.ofBits_def, Ideal.ofBits_zero_f32]
  rfl

/-! ## Layer 2: features of width 64 to width 64 -/

/-- The first weight matrix of the layer, cut out of the stack and flattened to rank two. -/
theorem v47_eq : val_main_v47 (F := Ideal) x4 = fun i => x4 (ix3 0 (i 0) (i 1)) := by
  funext i
  rw [val_main_v47_apply, val_main_v46_apply]
  refine congrArg x4 (funext fun a => Fin.ext ?_)
  have h0 : (i 0).val < 64 := (i 0).isLt
  have h1 : (i 1).val < 64 := (i 1).isLt
  match a with
  | ⟨0, _⟩ => rfl
  | ⟨1, _⟩ => show ((i 0).val * 64 + (i 1).val) / 64 % 64 = (i 0).val; omega
  | ⟨2, _⟩ => show ((i 0).val * 64 + (i 1).val) % 64 = (i 1).val; omega

/-- The second weight matrix of the layer, cut out of the stack and flattened to rank two. -/
theorem v51_eq : val_main_v51 (F := Ideal) x4 = fun i => x4 (ix3 1 (i 0) (i 1)) := by
  funext i
  rw [val_main_v51_apply, val_main_v50_apply]
  refine congrArg x4 (funext fun a => Fin.ext ?_)
  have h0 : (i 0).val < 64 := (i 0).isLt
  have h1 : (i 1).val < 64 := (i 1).isLt
  match a with
  | ⟨0, _⟩ => rfl
  | ⟨1, _⟩ => show ((i 0).val * 64 + (i 1).val) / 64 % 64 = (i 0).val; omega
  | ⟨2, _⟩ => show ((i 0).val * 64 + (i 1).val) % 64 = (i 1).val; omega

/-- The third weight matrix of the layer, cut out of the stack and flattened to rank two. -/
theorem v59_eq : val_main_v59 (F := Ideal) x4 = fun i => x4 (ix3 2 (i 0) (i 1)) := by
  funext i
  rw [val_main_v59_apply, val_main_v58_apply]
  refine congrArg x4 (funext fun a => Fin.ext ?_)
  have h0 : (i 0).val < 64 := (i 0).isLt
  have h1 : (i 1).val < 64 := (i 1).isLt
  match a with
  | ⟨0, _⟩ => rfl
  | ⟨1, _⟩ => show ((i 0).val * 64 + (i 1).val) / 64 % 64 = (i 0).val; omega
  | ⟨2, _⟩ => show ((i 0).val * 64 + (i 1).val) % 64 = (i 1).val; omega

/-- The bias, repeated along the batch and the node axes. -/
theorem v63_eq : val_main_v63 (F := Ideal) x5 = fun i => x5 (ix1 (i 2)) := by
  funext i
  rw [val_main_v63_apply, val_main_v62_apply]
  exact congrArg x5 (eq_ix1 _)

/-- `h W₀`. -/
theorem v48_eq (h : Fin 8 → Fin 1024 → Fin 64 → EReal)
    (hh : val_main_v45 (F := Ideal) x0 x1 x2 x3 = fun i => h (i 0) (i 1) (i 2)) :
    val_main_v48 (F := Ideal) x0 x1 x2 x3 x4 = fun i => mm (h (i 0)) (wts x4 0) (i 1) (i 2) := by
  funext i
  rw [val_main_v48_apply, hh, v47_eq]
  rfl

/-- `L h`, graph by graph. -/
theorem v49_eq (h : Fin 8 → Fin 1024 → Fin 64 → EReal)
    (hh : val_main_v45 (F := Ideal) x0 x1 x2 x3 = fun i => h (i 0) (i 1) (i 2)) :
    val_main_v49 (F := Ideal) x0 x1 x2 x3 = fun i => mm (lapR (adj x1 (i 0))) (h (i 0)) (i 1) (i 2) := by
  funext i
  rw [val_main_v49_apply, v25_eq, hh]
  rfl

/-- `(L h) W₁`. -/
theorem v52_eq (h : Fin 8 → Fin 1024 → Fin 64 → EReal)
    (hh : val_main_v45 (F := Ideal) x0 x1 x2 x3 = fun i => h (i 0) (i 1) (i 2)) :
    val_main_v52 (F := Ideal) x0 x1 x2 x3 x4 = fun i => mm (mm (lapR (adj x1 (i 0))) (h (i 0))) (wts x4 1) (i 1) (i 2) := by
  funext i
  rw [val_main_v52_apply, v49_eq x0 x1 x2 x3 h hh, v51_eq]
  rfl

/-- `L (L h)`. -/
theorem v54_eq (h : Fin 8 → Fin 1024 → Fin 64 → EReal)
    (hh : val_main_v45 (F := Ideal) x0 x1 x2 x3 = fun i => h (i 0) (i 1) (i 2)) :
    val_main_v54 (F := Ideal) x0 x1 x2 x3 = fun i => mm (lapR (adj x1 (i 0))) (mm (lapR (adj x1 (i 0))) (h (i 0))) (i 1) (i 2) := by
  funext i
  rw [val_main_v54_apply, v25_eq, v49_eq x0 x1 x2 x3 h hh]
  rfl

/-- `2 · L (L h) - h`, the third term of the recurrence. -/
theorem v57_eq (h : Fin 8 → Fin 1024 → Fin 64 → EReal)
    (hh : val_main_v45 (F := Ideal) x0 x1 x2 x3 = fun i => h (i 0) (i 1) (i 2)) :
    val_main_v57 (F := Ideal) x0 x1 x2 x3 = fun i => twoLit * mm (lapR (adj x1 (i 0))) (mm (lapR (adj x1 (i 0))) (h (i 0))) (i 1) (i 2) - h (i 0) (i 1) (i 2) := by
  funext i
  rw [val_main_v57_apply, val_main_v56_apply, val_main_v55_apply, val_main_cst_5_apply,
    v54_eq x0 x1 x2 x3 h hh, hh]
  rfl

/-- `(2 · L (L h) - h) W₂`. -/
theorem v60_eq (h : Fin 8 → Fin 1024 → Fin 64 → EReal)
    (hh : val_main_v45 (F := Ideal) x0 x1 x2 x3 = fun i => h (i 0) (i 1) (i 2)) :
    val_main_v60 (F := Ideal) x0 x1 x2 x3 x4 = fun i => mm (fun r k => twoLit * mm (lapR (adj x1 (i 0))) (mm (lapR (adj x1 (i 0))) (h (i 0))) r k - h (i 0) r k)
      (wts x4 2) (i 1) (i 2) := by
  funext i
  rw [val_main_v60_apply, v57_eq x0 x1 x2 x3 h hh, v59_eq]
  rfl

/-- The layer: the three products added left to right, then the bias. -/
theorem v64_eq (h : Fin 8 → Fin 1024 → Fin 64 → EReal)
    (hh : val_main_v45 (F := Ideal) x0 x1 x2 x3 = fun i => h (i 0) (i 1) (i 2)) :
    val_main_v64 (F := Ideal) x0 x1 x2 x3 x4 x5 = fun i => layR (lapR (adj x1 (i 0))) (h (i 0)) (wts x4) (bias x5) (i 1) (i 2) := by
  funext i
  rw [val_main_v64_apply, val_main_v61_apply, val_main_v53_apply, v48_eq x0 x1 x2 x3 x4 h hh,
    v52_eq x0 x1 x2 x3 x4 h hh, v60_eq x0 x1 x2 x3 x4 h hh, v63_eq]
  rfl

/-- The positive part of the layer. -/
theorem v65_eq (h : Fin 8 → Fin 1024 → Fin 64 → EReal)
    (hh : val_main_v45 (F := Ideal) x0 x1 x2 x3 = fun i => h (i 0) (i 1) (i 2)) :
    val_main_v65 (F := Ideal) x0 x1 x2 x3 x4 x5 = fun i => relu (layR (lapR (adj x1 (i 0))) (h (i 0)) (wts x4) (bias x5)) (i 1) (i 2) := by
  funext i
  rw [val_main_v65_apply, val_main_call2_v0_apply, val_main_call2_cst_apply,
    v64_eq x0 x1 x2 x3 x4 x5 h hh, Ideal.maximumf_def, Ideal.ofBits_def, Ideal.ofBits_zero_f32]
  rfl

/-! ## Layer 3: features of width 64 to width 32 -/

/-- The first weight matrix of the layer, cut out of the stack and flattened to rank two. -/
theorem v67_eq : val_main_v67 (F := Ideal) x6 = fun i => x6 (ix3 0 (i 0) (i 1)) := by
  funext i
  rw [val_main_v67_apply, val_main_v66_apply]
  refine congrArg x6 (funext fun a => Fin.ext ?_)
  have h0 : (i 0).val < 64 := (i 0).isLt
  have h1 : (i 1).val < 32 := (i 1).isLt
  match a with
  | ⟨0, _⟩ => rfl
  | ⟨1, _⟩ => show ((i 0).val * 32 + (i 1).val) / 32 % 64 = (i 0).val; omega
  | ⟨2, _⟩ => show ((i 0).val * 32 + (i 1).val) % 32 = (i 1).val; omega

/-- The second weight matrix of the layer, cut out of the stack and flattened to rank two. -/
theorem v71_eq : val_main_v71 (F := Ideal) x6 = fun i => x6 (ix3 1 (i 0) (i 1)) := by
  funext i
  rw [val_main_v71_apply, val_main_v70_apply]
  refine congrArg x6 (funext fun a => Fin.ext ?_)
  have h0 : (i 0).val < 64 := (i 0).isLt
  have h1 : (i 1).val < 32 := (i 1).isLt
  match a with
  | ⟨0, _⟩ => rfl
  | ⟨1, _⟩ => show ((i 0).val * 32 + (i 1).val) / 32 % 64 = (i 0).val; omega
  | ⟨2, _⟩ => show ((i 0).val * 32 + (i 1).val) % 32 = (i 1).val; omega

/-- The third weight matrix of the layer, cut out of the stack and flattened to rank two. -/
theorem v79_eq : val_main_v79 (F := Ideal) x6 = fun i => x6 (ix3 2 (i 0) (i 1)) := by
  funext i
  rw [val_main_v79_apply, val_main_v78_apply]
  refine congrArg x6 (funext fun a => Fin.ext ?_)
  have h0 : (i 0).val < 64 := (i 0).isLt
  have h1 : (i 1).val < 32 := (i 1).isLt
  match a with
  | ⟨0, _⟩ => rfl
  | ⟨1, _⟩ => show ((i 0).val * 32 + (i 1).val) / 32 % 64 = (i 0).val; omega
  | ⟨2, _⟩ => show ((i 0).val * 32 + (i 1).val) % 32 = (i 1).val; omega

/-- The bias, repeated along the batch and the node axes. -/
theorem v83_eq : val_main_v83 (F := Ideal) x7 = fun i => x7 (ix1 (i 2)) := by
  funext i
  rw [val_main_v83_apply, val_main_v82_apply]
  exact congrArg x7 (eq_ix1 _)

/-- `h W₀`. -/
theorem v68_eq (h : Fin 8 → Fin 1024 → Fin 64 → EReal)
    (hh : val_main_v65 (F := Ideal) x0 x1 x2 x3 x4 x5 = fun i => h (i 0) (i 1) (i 2)) :
    val_main_v68 (F := Ideal) x0 x1 x2 x3 x4 x5 x6 = fun i => mm (h (i 0)) (wts x6 0) (i 1) (i 2) := by
  funext i
  rw [val_main_v68_apply, hh, v67_eq]
  rfl

/-- `L h`, graph by graph. -/
theorem v69_eq (h : Fin 8 → Fin 1024 → Fin 64 → EReal)
    (hh : val_main_v65 (F := Ideal) x0 x1 x2 x3 x4 x5 = fun i => h (i 0) (i 1) (i 2)) :
    val_main_v69 (F := Ideal) x0 x1 x2 x3 x4 x5 = fun i => mm (lapR (adj x1 (i 0))) (h (i 0)) (i 1) (i 2) := by
  funext i
  rw [val_main_v69_apply, v25_eq, hh]
  rfl

/-- `(L h) W₁`. -/
theorem v72_eq (h : Fin 8 → Fin 1024 → Fin 64 → EReal)
    (hh : val_main_v65 (F := Ideal) x0 x1 x2 x3 x4 x5 = fun i => h (i 0) (i 1) (i 2)) :
    val_main_v72 (F := Ideal) x0 x1 x2 x3 x4 x5 x6 = fun i => mm (mm (lapR (adj x1 (i 0))) (h (i 0))) (wts x6 1) (i 1) (i 2) := by
  funext i
  rw [val_main_v72_apply, v69_eq x0 x1 x2 x3 x4 x5 h hh, v71_eq]
  rfl

/-- `L (L h)`. -/
theorem v74_eq (h : Fin 8 → Fin 1024 → Fin 64 → EReal)
    (hh : val_main_v65 (F := Ideal) x0 x1 x2 x3 x4 x5 = fun i => h (i 0) (i 1) (i 2)) :
    val_main_v74 (F := Ideal) x0 x1 x2 x3 x4 x5 = fun i => mm (lapR (adj x1 (i 0))) (mm (lapR (adj x1 (i 0))) (h (i 0))) (i 1) (i 2) := by
  funext i
  rw [val_main_v74_apply, v25_eq, v69_eq x0 x1 x2 x3 x4 x5 h hh]
  rfl

/-- `2 · L (L h) - h`, the third term of the recurrence. -/
theorem v77_eq (h : Fin 8 → Fin 1024 → Fin 64 → EReal)
    (hh : val_main_v65 (F := Ideal) x0 x1 x2 x3 x4 x5 = fun i => h (i 0) (i 1) (i 2)) :
    val_main_v77 (F := Ideal) x0 x1 x2 x3 x4 x5 = fun i => twoLit * mm (lapR (adj x1 (i 0))) (mm (lapR (adj x1 (i 0))) (h (i 0))) (i 1) (i 2) - h (i 0) (i 1) (i 2) := by
  funext i
  rw [val_main_v77_apply, val_main_v76_apply, val_main_v75_apply, val_main_cst_6_apply,
    v74_eq x0 x1 x2 x3 x4 x5 h hh, hh]
  rfl

/-- `(2 · L (L h) - h) W₂`. -/
theorem v80_eq (h : Fin 8 → Fin 1024 → Fin 64 → EReal)
    (hh : val_main_v65 (F := Ideal) x0 x1 x2 x3 x4 x5 = fun i => h (i 0) (i 1) (i 2)) :
    val_main_v80 (F := Ideal) x0 x1 x2 x3 x4 x5 x6 = fun i => mm (fun r k => twoLit * mm (lapR (adj x1 (i 0))) (mm (lapR (adj x1 (i 0))) (h (i 0))) r k - h (i 0) r k)
      (wts x6 2) (i 1) (i 2) := by
  funext i
  rw [val_main_v80_apply, v77_eq x0 x1 x2 x3 x4 x5 h hh, v79_eq]
  rfl

/-- The layer: the three products added left to right, then the bias. -/
theorem v84_eq (h : Fin 8 → Fin 1024 → Fin 64 → EReal)
    (hh : val_main_v65 (F := Ideal) x0 x1 x2 x3 x4 x5 = fun i => h (i 0) (i 1) (i 2)) :
    val_main_v84 (F := Ideal) x0 x1 x2 x3 x4 x5 x6 x7 = fun i => layR (lapR (adj x1 (i 0))) (h (i 0)) (wts x6) (bias x7) (i 1) (i 2) := by
  funext i
  rw [val_main_v84_apply, val_main_v81_apply, val_main_v73_apply, v68_eq x0 x1 x2 x3 x4 x5 x6 h hh,
    v72_eq x0 x1 x2 x3 x4 x5 x6 h hh, v80_eq x0 x1 x2 x3 x4 x5 x6 h hh, v83_eq]
  rfl

/-! ## The whole network -/

/-- The features, already laid out as [8, 1024, 96], by their three coordinates. -/
theorem v0_eq : val_main_v0 (F := Ideal) x0
    = fun i => (fun g r k => val_main_v0 (F := Ideal) x0 (ix3 g r k)) (i 0) (i 1) (i 2) := by
  funext i
  exact congrArg (val_main_v0 (F := Ideal) x0) (eq_ix3 i)

/-- The reference program's result is the second arrangement of the network, graph by graph. -/
theorem ref_eq : val_main_v84 (F := Ideal) x0 x1 x2 x3 x4 x5 x6 x7
    = wholeR (val_main_v0 (F := Ideal) x0) x1 x2 x3 x4 x5 x6 x7 := by
  have e1 := v45_eq x0 x1 x2 x3 (fun g r k => val_main_v0 (F := Ideal) x0 (ix3 g r k)) (v0_eq x0)
  have e2 := v65_eq x0 x1 x2 x3 x4 x5
    (fun g => relu (layR (lapR (adj x1 g)) (fun r k => val_main_v0 (F := Ideal) x0 (ix3 g r k)) (wts x2) (bias x3))) e1
  rw [v84_eq x0 x1 x2 x3 x4 x5 x6 x7
    (fun g => relu (layR (lapR (adj x1 g))
      (relu (layR (lapR (adj x1 g)) (fun r k => val_main_v0 (F := Ideal) x0 (ix3 g r k)) (wts x2) (bias x3)))
      (wts x4) (bias x5))) e2]
  rfl

end Cert.ChebNet.Ref

end
-- ==== Proof.KerArray.lean ====
/-
  From the kernel's blocks to the whole result array, on the extended reals.

  The kernel runs over a grid of four points. At point t it reads block t of the adjacency array [8, 1024, 1024]
  (graphs 2t and 2t + 1), block t of the features laid out as [8, 1024, 96] (the same two graphs), the three weight
  arrays and the three biases whole (the biases laid out as one-row matrices), and writes back block t of the result
  array [8, 1024, 32]: again graphs 2t and 2t + 1. A block's coordinate on an axis is always
  (block index) × (block size) + (coordinate inside the block).

  Given what the body computes on its blocks (`BodySpec`: entry (g, r, c) of the result block is the network of graph g
  of the two input blocks), every point writes back exactly its block of ONE function of the argument arrays,
  `whole` — graph b of the result is the network of graph b of the adjacency and of the features — and the four blocks
  cover the result array (graph b lies in the block of point b / 2). So after the run the result array is `whole`.
-/
import proofs.«153474_g3504693314081_cont_8to1_b_212_24_alg».proof.Proof.Gen.KernelIdeal.Frame
import proofs.«153474_g3504693314081_cont_8to1_b_212_24_alg».proof.Proof.Gen.KernelIdeal.Value
import proofs.«153474_g3504693314081_cont_8to1_b_212_24_alg».proof.Proof.Spec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ChebNet.Ker

open Cert.KernelIdeal Cert.KernelIdeal.Gen Cert.KernelIdeal.Value

variable (m : (ℓ : Loc nD τ sig) → Buf (Elt Ideal) ℓ) (ρ : Dev nD → PrngReg)

/-- The region finds the features laid out as [8, 1024, 96]: the reshape of the first argument, kept folded. -/
theorem V_v0 (c : Dev nD) : (V m c main_v0 : S8x1024x96.Idx → EReal) = shapeCast S8x1024x96 (m ((c : Thread nD τ).loc main_arg0)) shapeCasts_S8x1024x12x8_S8x1024x96 := by
  dsimp only [Gen.V, Gen.hostOps0]; after_results; rfl

/-- The block index maps of the three moving windows (adjacency, features, result), decided over the four grid points:
    block t on the leading axis, block 0 on the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- The adjacency window's block at point t is graphs 2t, 2t+1 of the adjacency array. -/
theorem iblk0_apply (c : Dev nD) (t : Fin cfg0.N) (y : S2x1024x1024.Idx) (k : S8x1024x1024.Idx)
    (h0 : (k 0).val = 2 * t.val + (y 0).val) (h1 : (k 1).val = (y 1).val) (h2 : (k 2).val = (y 2).val) :
    (iblk m c 0 t : Vec Ideal S2x1024x1024 .f32) y = (m ((c : Thread nD τ).loc main_arg1) : S8x1024x1024.Idx → EReal) k := by
  obtain ⟨e0, e1, e2, -⟩ := idx_facts t
  unfold iblk
  rw [View.read_apply]
  show V m c main_arg1 _ = m (c.tc.loc main_arg1) _
  rw [V_main_arg1]
  congr 1
  funext a
  apply Fin.ext
  match a with
  | ⟨0, _⟩ => show win0_0.index t 0 * 2 + 1 * (y 0).val = (k 0).val; rw [e0, h0]; omega
  | ⟨1, _⟩ => show win0_0.index t 1 * 1024 + 1 * (y 1).val = (k 1).val; rw [e1, h1]; omega
  | ⟨2, _⟩ => show win0_0.index t 2 * 1024 + 1 * (y 2).val = (k 2).val; rw [e2, h2]; omega

/-- The feature window's block at point t is graphs 2t, 2t+1 of the features laid out as [8, 1024, 96]. -/
theorem iblk1_apply (c : Dev nD) (t : Fin cfg0.N) (y : S2x1024x96.Idx) (k : S8x1024x96.Idx)
    (h0 : (k 0).val = 2 * t.val + (y 0).val) (h1 : (k 1).val = (y 1).val) (h2 : (k 2).val = (y 2).val) :
    (iblk m c 1 t : Vec Ideal S2x1024x96 .f32) y
      = shapeCast S8x1024x96 (m ((c : Thread nD τ).loc main_arg0)) shapeCasts_S8x1024x12x8_S8x1024x96 k := by
  obtain ⟨-, -, -, e0, e1, e2, -⟩ := idx_facts t
  unfold iblk
  rw [View.read_apply]
  show V m c main_v0 _ = _
  rw [V_v0]
  congr 1
  funext a
  apply Fin.ext
  match a with
  | ⟨0, _⟩ => show win0_1.index t 0 * 2 + 1 * (y 0).val = (k 0).val; rw [e0, h0]; omega
  | ⟨1, _⟩ => show win0_1.index t 1 * 1024 + 1 * (y 1).val = (k 1).val; rw [e1, h1]; omega
  | ⟨2, _⟩ => show win0_1.index t 2 * 96 + 1 * (y 2).val = (k 2).val; rw [e2, h2]; omega

/-- Window 2 holds a whole weight array: its block index is 0 on every axis, at every point. -/
theorem idx_whole2 : ∀ t : Fin cfg0.N, win0_2.index t (0 : Fin 3) = 0 ∧ win0_2.index t (1 : Fin 3) = 0 ∧ win0_2.index t (2 : Fin 3) = 0 :=
  (by decide +kernel : ∀ t : Fin grid0.N, _)

/-- Window 4 holds a whole weight array: its block index is 0 on every axis, at every point. -/
theorem idx_whole4 : ∀ t : Fin cfg0.N, win0_4.index t (0 : Fin 3) = 0 ∧ win0_4.index t (1 : Fin 3) = 0 ∧ win0_4.index t (2 : Fin 3) = 0 :=
  (by decide +kernel : ∀ t : Fin grid0.N, _)

/-- Window 6 holds a whole weight array: its block index is 0 on every axis, at every point. -/
theorem idx_whole6 : ∀ t : Fin cfg0.N, win0_6.index t (0 : Fin 3) = 0 ∧ win0_6.index t (1 : Fin 3) = 0 ∧ win0_6.index t (2 : Fin 3) = 0 :=
  (by decide +kernel : ∀ t : Fin grid0.N, _)

/-- Window 3 holds a whole bias row: its block index is 0 on both axes, at every point. -/
theorem idx_whole3 : ∀ t : Fin cfg0.N, win0_3.index t (0 : Fin 2) = 0 ∧ win0_3.index t (1 : Fin 2) = 0 :=
  (by decide +kernel : ∀ t : Fin grid0.N, _)

/-- Window 5 holds a whole bias row: its block index is 0 on both axes, at every point. -/
theorem idx_whole5 : ∀ t : Fin cfg0.N, win0_5.index t (0 : Fin 2) = 0 ∧ win0_5.index t (1 : Fin 2) = 0 :=
  (by decide +kernel : ∀ t : Fin grid0.N, _)

/-- Window 7 holds a whole bias row: its block index is 0 on both axes, at every point. -/
theorem idx_whole7 : ∀ t : Fin cfg0.N, win0_7.index t (0 : Fin 2) = 0 ∧ win0_7.index t (1 : Fin 2) = 0 :=
  (by decide +kernel : ∀ t : Fin grid0.N, _)

/-- Window 2's block, at any point, is the whole weight array. -/
theorem iblk2_apply (c : Dev nD) (t : Fin cfg0.N) (y : S3x96x64.Idx) :
    (iblk m c 2 t : Vec Ideal S3x96x64 .f32) y = (m ((c : Thread nD τ).loc main_arg2) : S3x96x64.Idx → EReal) y := by
  obtain ⟨e0, e1, e2⟩ := idx_whole2 t
  unfold iblk
  rw [View.read_apply]
  show V m c main_arg2 _ = m (c.tc.loc main_arg2) _
  rw [V_main_arg2]
  congr 1
  funext a
  apply Fin.ext
  match a with
  | ⟨0, _⟩ => show win0_2.index t 0 * 3 + 1 * (y 0).val = (y 0).val; rw [e0]; omega
  | ⟨1, _⟩ => show win0_2.index t 1 * 96 + 1 * (y 1).val = (y 1).val; rw [e1]; omega
  | ⟨2, _⟩ => show win0_2.index t 2 * 64 + 1 * (y 2).val = (y 2).val; rw [e2]; omega

/-- Window 4's block, at any point, is the whole weight array. -/
theorem iblk4_apply (c : Dev nD) (t : Fin cfg0.N) (y : S3x64x64.Idx) :
    (iblk m c 4 t : Vec Ideal S3x64x64 .f32) y = (m ((c : Thread nD τ).loc main_arg4) : S3x64x64.Idx → EReal) y := by
  obtain ⟨e0, e1, e2⟩ := idx_whole4 t
  unfold iblk
  rw [View.read_apply]
  show V m c main_arg4 _ = m (c.tc.loc main_arg4) _
  rw [V_main_arg4]
  congr 1
  funext a
  apply Fin.ext
  match a with
  | ⟨0, _⟩ => show win0_4.index t 0 * 3 + 1 * (y 0).val = (y 0).val; rw [e0]; omega
  | ⟨1, _⟩ => show win0_4.index t 1 * 64 + 1 * (y 1).val = (y 1).val; rw [e1]; omega
  | ⟨2, _⟩ => show win0_4.index t 2 * 64 + 1 * (y 2).val = (y 2).val; rw [e2]; omega

/-- Window 6's block, at any point, is the whole weight array. -/
theorem iblk6_apply (c : Dev nD) (t : Fin cfg0.N) (y : S3x64x32.Idx) :
    (iblk m c 6 t : Vec Ideal S3x64x32 .f32) y = (m ((c : Thread nD τ).loc main_arg6) : S3x64x32.Idx → EReal) y := by
  obtain ⟨e0, e1, e2⟩ := idx_whole6 t
  unfold iblk
  rw [View.read_apply]
  show V m c main_arg6 _ = m (c.tc.loc main_arg6) _
  rw [V_main_arg6]
  congr 1
  funext a
  apply Fin.ext
  match a with
  | ⟨0, _⟩ => show win0_6.index t 0 * 3 + 1 * (y 0).val = (y 0).val; rw [e0]; omega
  | ⟨1, _⟩ => show win0_6.index t 1 * 64 + 1 * (y 1).val = (y 1).val; rw [e1]; omega
  | ⟨2, _⟩ => show win0_6.index t 2 * 32 + 1 * (y 2).val = (y 2).val; rw [e2]; omega

/-- The region finds this bias laid out as a one-row matrix: the reshape of the bias vector. -/
theorem V_v1 (c : Dev nD) : (V m c main_v1 : S1x64.Idx → EReal) = shapeCast S1x64 (m ((c : Thread nD τ).loc main_arg3)) shapeCasts_S64_S1x64 := by
  dsimp only [Gen.V, Gen.hostOps0]; after_results; rfl

/-- Window 3's block, at any point, reads at (0, o) the bias vector at o. -/
theorem iblk3_apply (c : Dev nD) (t : Fin cfg0.N) (o : Fin 64) :
    (iblk m c 3 t : Vec Ideal S1x64 .f32) (ix2 0 o) = (m ((c : Thread nD τ).loc main_arg3) : S64.Idx → EReal) (ix1 o) := by
  obtain ⟨e0, e1⟩ := idx_whole3 t
  unfold iblk
  rw [View.read_apply]
  show V m c main_v1 _ = m (c.tc.loc main_arg3) _
  rw [V_v1, ← shapeCast_a_1a_apply (m ((c : Thread nD τ).loc main_arg3)) shapeCasts_S64_S1x64 0 o]
  congr 1
  funext a
  apply Fin.ext
  match a with
  | ⟨0, _⟩ => show win0_3.index t 0 * 1 + 1 * 0 = 0; rw [e0]
  | ⟨1, _⟩ => show win0_3.index t 1 * 64 + 1 * o.val = o.val; rw [e1]; omega

/-- The region finds this bias laid out as a one-row matrix: the reshape of the bias vector. -/
theorem V_v2 (c : Dev nD) : (V m c main_v2 : S1x64.Idx → EReal) = shapeCast S1x64 (m ((c : Thread nD τ).loc main_arg5)) shapeCasts_S64_S1x64 := by
  dsimp only [Gen.V, Gen.hostOps0]; after_results; rfl

/-- Window 5's block, at any point, reads at (0, o) the bias vector at o. -/
theorem iblk5_apply (c : Dev nD) (t : Fin cfg0.N) (o : Fin 64) :
    (iblk m c 5 t : Vec Ideal S1x64 .f32) (ix2 0 o) = (m ((c : Thread nD τ).loc main_arg5) : S64.Idx → EReal) (ix1 o) := by
  obtain ⟨e0, e1⟩ := idx_whole5 t
  unfold iblk
  rw [View.read_apply]
  show V m c main_v2 _ = m (c.tc.loc main_arg5) _
  rw [V_v2, ← shapeCast_a_1a_apply (m ((c : Thread nD τ).loc main_arg5)) shapeCasts_S64_S1x64 0 o]
  congr 1
  funext a
  apply Fin.ext
  match a with
  | ⟨0, _⟩ => show win0_5.index t 0 * 1 + 1 * 0 = 0; rw [e0]
  | ⟨1, _⟩ => show win0_5.index t 1 * 64 + 1 * o.val = o.val; rw [e1]; omega

/-- The region finds this bias laid out as a one-row matrix: the reshape of the bias vector. -/
theorem V_v3 (c : Dev nD) : (V m c main_v3 : S1x32.Idx → EReal) = shapeCast S1x32 (m ((c : Thread nD τ).loc main_arg7)) shapeCasts_S32_S1x32 := by
  dsimp only [Gen.V, Gen.hostOps0]; after_results; rfl

/-- Window 7's block, at any point, reads at (0, o) the bias vector at o. -/
theorem iblk7_apply (c : Dev nD) (t : Fin cfg0.N) (o : Fin 32) :
    (iblk m c 7 t : Vec Ideal S1x32 .f32) (ix2 0 o) = (m ((c : Thread nD τ).loc main_arg7) : S32.Idx → EReal) (ix1 o) := by
  obtain ⟨e0, e1⟩ := idx_whole7 t
  unfold iblk
  rw [View.read_apply]
  show V m c main_v3 _ = m (c.tc.loc main_arg7) _
  rw [V_v3, ← shapeCast_a_1a_apply (m ((c : Thread nD τ).loc main_arg7)) shapeCasts_S32_S1x32 0 o]
  congr 1
  funext a
  apply Fin.ext
  match a with
  | ⟨0, _⟩ => show win0_7.index t 0 * 1 + 1 * 0 = 0; rw [e0]
  | ⟨1, _⟩ => show win0_7.index t 1 * 32 + 1 * o.val = o.val; rw [e1]; omega

/-- What the kernel body computes on its blocks (proved separately): entry (g, r, c) of the result block is the network of
    graph g of the adjacency block and of the feature block, with the whole weights and biases. -/
def BodySpec : Prop := ∀ (x0 : Vec Ideal S2x1024x1024 .f32) (x1 : Vec Ideal S2x1024x96 .f32) (x2 : Vec Ideal S3x96x64 .f32) (x3 : Vec Ideal S1x64 .f32) (x4 : Vec Ideal S3x64x64 .f32) (x5 : Vec Ideal S1x64 .f32) (x6 : Vec Ideal S3x64x32 .f32) (x7 : Vec Ideal S1x32 .f32) (g : Fin 2) (r : Fin 1024) (c : Fin 32),
    Cert.KernelIdeal.Gen.out0_8 x0 x1 x2 x3 x4 x5 x6 x7 (ix3 g r c) = Cert.ChebNet.netK (fun r c => x0 (ix3 g r c)) (fun r k => x1 (ix3 g r k)) (fun k a o => x2 (ix3 k a o)) (fun o => x3 (ix2 0 o)) (fun k a o => x4 (ix3 k a o)) (fun o => x5 (ix2 0 o)) (fun k a o => x6 (ix3 k a o)) (fun o => x7 (ix2 0 o)) r c

/-- The whole result array as one function of the argument arrays. -/
abbrev whole (c : Dev nD) : S8x1024x32.Idx → EReal :=
  Cert.ChebNet.wholeK (shapeCast S8x1024x96 (m ((c : Thread nD τ).loc main_arg0)) shapeCasts_S8x1024x12x8_S8x1024x96)
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The body's law at any index of the result block. -/
theorem out_at (hbody : BodySpec) (x0 : Vec Ideal S2x1024x1024 .f32) (x1 : Vec Ideal S2x1024x96 .f32) (x2 : Vec Ideal S3x96x64 .f32) (x3 : Vec Ideal S1x64 .f32) (x4 : Vec Ideal S3x64x64 .f32) (x5 : Vec Ideal S1x64 .f32) (x6 : Vec Ideal S3x64x32 .f32) (x7 : Vec Ideal S1x32 .f32) (y : S2x1024x32.Idx) :
    out0_8 x0 x1 x2 x3 x4 x5 x6 x7 y = Cert.ChebNet.netK (fun r c => x0 (ix3 (y 0) r c)) (fun r k => x1 (ix3 (y 0) r k)) (fun k a o => x2 (ix3 k a o)) (fun o => x3 (ix2 0 o)) (fun k a o => x4 (ix3 k a o)) (fun o => x5 (ix2 0 o)) (fun k a o => x6 (ix3 k a o)) (fun o => x7 (ix2 0 o)) (y 1) (y 2) := by
  have h := hbody x0 x1 x2 x3 x4 x5 x6 x7 (y 0) (y 1) (y 2)
  exact (congrArg (out0_8 x0 x1 x2 x3 x4 x5 x6 x7) (eq_ix3 y)).trans h

/-- The network depends on its eight arguments only through their entries. -/
theorem netK_congr {n p p₁ p₂ p₃ : ℕ} {A A' : Fin n → Fin n → EReal} {X X' : Fin n → Fin p → EReal}
    {W1 W1' : Fin 3 → Fin p → Fin p₁ → EReal} {b1 b1' : Fin p₁ → EReal}
    {W2 W2' : Fin 3 → Fin p₁ → Fin p₂ → EReal} {b2 b2' : Fin p₂ → EReal}
    {W3 W3' : Fin 3 → Fin p₂ → Fin p₃ → EReal} {b3 b3' : Fin p₃ → EReal}
    (hA : ∀ r c, A r c = A' r c) (hX : ∀ r k, X r k = X' r k)
    (hW1 : ∀ k a o, W1 k a o = W1' k a o) (hb1 : ∀ o, b1 o = b1' o)
    (hW2 : ∀ k a o, W2 k a o = W2' k a o) (hb2 : ∀ o, b2 o = b2' o)
    (hW3 : ∀ k a o, W3 k a o = W3' k a o) (hb3 : ∀ o, b3 o = b3' o) :
    Cert.ChebNet.netK A X W1 b1 W2 b2 W3 b3 = Cert.ChebNet.netK A' X' W1' b1' W2' b2' W3' b3' := by
  obtain rfl : A = A' := funext fun r => funext fun c => hA r c
  obtain rfl : X = X' := funext fun r => funext fun k => hX r k
  obtain rfl : W1 = W1' := funext fun k => funext fun a => funext fun o => hW1 k a o
  obtain rfl : b1 = b1' := funext hb1
  obtain rfl : W2 = W2' := funext fun k => funext fun a => funext fun o => hW2 k a o
  obtain rfl : b2 = b2' := funext hb2
  obtain rfl : W3 = W3' := funext fun k => funext fun a => funext fun o => hW3 k a o
  obtain rfl : b3 = b3' := funext hb3
  rfl

/-- Point t's result block at y is the whole array at the index y sits at: graph 2t + y₀, same row, same column. -/
theorem blk_at (hbody : BodySpec) (c : Dev nD) (t : Fin cfg0.N) (y : S2x1024x32.Idx) (i : S8x1024x32.Idx)
    (h0 : (i 0).val = 2 * t.val + (y 0).val) (h1 : i 1 = y 1) (h2 : i 2 = y 2) :
    out0_8 (iblk m c 0 t) (iblk m c 1 t) (iblk m c 2 t) (iblk m c 3 t) (iblk m c 4 t) (iblk m c 5 t) (iblk m c 6 t) (iblk m c 7 t) y
      = whole m c i := by
  refine (out_at hbody (iblk m c 0 t) (iblk m c 1 t) (iblk m c 2 t) (iblk m c 3 t) (iblk m c 4 t) (iblk m c 5 t) (iblk m c 6 t) (iblk m c 7 t) y).trans ?_
  show _ = Cert.ChebNet.netK _ _ _ _ _ _ _ _ (i 1) (i 2)
  rw [h1, h2]
  refine congrFun (congrFun (netK_congr
    (fun r k => iblk0_apply m c t _ _ h0 rfl rfl) (fun r k => iblk1_apply m c t _ _ h0 rfl rfl)
    (fun k a o => iblk2_apply m c t _) (fun o => iblk3_apply m c t o)
    (fun k a o => iblk4_apply m c t _) (fun o => iblk5_apply m c t o)
    (fun k a o => iblk6_apply m c t _) (fun o => iblk7_apply m c t o)) (y 1)) (y 2)

/-- What point t writes back is block t of the whole array. -/
theorem flushed_eq (hbody : BodySpec) (c : Dev nD) (t : Fin cfg0.N) :
    (dats m 0 c).flushed 8 t = ((cfg0.win 8).blk t).view.read (Elt Ideal) (whole m c) := by
  rw [Value.flushed8]
  obtain ⟨-, -, -, -, -, -, e0, e1, e2⟩ := idx_facts t
  funext y
  rw [View.read_apply]
  show out0_8 (iblk m c 0 t) (iblk m c 1 t) (iblk m c 2 t) (iblk m c 3 t) (iblk m c 4 t) (iblk m c 5 t) (iblk m c 6 t) (iblk m c 7 t) y
    = whole m c (((cfg0.win 8).blk t).view.emb y)
  refine blk_at m hbody c t y _ ?_ ?_ ?_
  · show win0_8.index t 0 * 2 + 1 * (y 0).val = 2 * t.val + (y 0).val; rw [e0]; omega
  · apply Fin.ext; show win0_8.index t 1 * 1024 + 1 * (y 1).val = (y 1).val; rw [e1]; omega
  · apply Fin.ext; show win0_8.index t 2 * 32 + 1 * (y 2).val = (y 2).val; rw [e2]; omega

/-- An index of the result array is in point t's block iff each coordinate is in the block's range on its axis. -/
theorem mem_blk (t : Fin cfg0.N) (i : S8x1024x32.Idx) :
    i ∈ ((cfg0.win 8).blk t).view.set ↔ ∀ a : Fin 3, win0_8.index t a * S2x1024x32.size a ≤ (i a).val ∧ (i a).val < win0_8.index t a * S2x1024x32.size a + S2x1024x32.size a := by
  show i ∈ ((View.whole main_v4).slice (win0_8.rect t)).set ↔ _
  rw [View.set_slice_whole, Rect.mem_set_unit]
  exact Iff.rfl

/-- The four blocks cover the result array: graph b is in the block of point b / 2. -/
theorem cover (i : S8x1024x32.Idx) : ∃ t : Fin cfg0.N, (cfg0.win 8).flush t = true ∧ i ∈ ((cfg0.win 8).blk t).view.set := by
  have hN : cfg0.N = 4 := N_0
  have hi0 : (i 0).val < 8 := (i 0).isLt
  have hi1 : (i 1).val < 1024 := (i 1).isLt
  have hi2 : (i 2).val < 32 := (i 2).isLt
  obtain ⟨t, ht⟩ : ∃ t : Fin cfg0.N, t.val = (i 0).val / 2 := ⟨⟨(i 0).val / 2, by omega⟩, rfl⟩
  obtain ⟨-, -, -, -, -, -, e0, e1, e2⟩ := idx_facts t
  refine ⟨t, flush0_8 t, ?_⟩
  rw [mem_blk]
  intro a
  match a with
  | ⟨0, _⟩ => show win0_8.index t 0 * 2 ≤ (i 0).val ∧ (i 0).val < win0_8.index t 0 * 2 + 2; rw [e0, ht]; omega
  | ⟨1, _⟩ => show win0_8.index t 1 * 1024 ≤ (i 1).val ∧ (i 1).val < win0_8.index t 1 * 1024 + 1024; rw [e1]; omega
  | ⟨2, _⟩ => show win0_8.index t 2 * 32 ≤ (i 2).val ∧ (i 2).val < win0_8.index t 2 * 32 + 32; rw [e2]; omega

/-- The result array after the run is the whole network of the argument arrays. -/
theorem final (hbody : BodySpec) (c : Dev nD) : (dats m 0 c).arrAt 8 cfg0.N = whole m c :=
  (dats m 0 c).arrAt_eq_of_cover 8 (whole m c) (fun t _ => flushed_eq m hbody c t) cover

/-- The run, read: the result array holds the whole network of the argument arrays, which are unchanged. -/
theorem run (hbody : BodySpec) : θ_run defs (onTc (τ := τ) (main (F := Ideal))) ⟨m, fun _ => 0, ρ⟩ fun r => ∀ c : Dev nD,
      r.2.mem ((c : Thread nD τ).loc main_v4) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m hbody c), (h c).2⟩) (Value.run_blocks m ρ)

end Cert.ChebNet.Ker

end
-- ==== Proof.LibPlainDot.lean ====
/-
  A plain matrix product at the ideal values, read at an index.

  For the dimension numbers `DotDims.plain M K N` (rows × contraction times contraction × columns, no batch
  axis) the element (r, c) of the product is `∑ k : Fin K, l (r, k) * r (k, c)` on the extended reals, both
  for the host's `dot_general` and for a `tpu.matmul` into the zero accumulator: no rounding, no order of
  summation and no tiling is left in either.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} {φ₁ φ₂ : FTy}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index is the sum over `k : Fin K` of row entry times column entry. -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col _ _)
  exact congrArg₂ (· * ·) (congrArg l el) (congrArg r er)

/-- The host's `dot_general` of plain dimension numbers, at an index. -/
theorem hostDot_apply (l : FVec Ideal ⟨2, ![M, K]⟩ φ₁) (r : FVec Ideal ⟨2, ![K, N]⟩ φ₂)
    (j : (⟨2, ![M, N]⟩ : Shape).Idx) :
    Host.dotGeneral (F := Ideal) (DotDims.plain M K N) none l r j = ∑ k : Fin K, l (ix2 (j 0) k) * r (ix2 k (j 1)) := by
  simp only [Host.dotGeneral]
  rw [Ideal.dotGeneral_apply]
  exact sum_contr l r j

/-- A `tpu.matmul` of plain dimension numbers into the zero accumulator, at an index. -/
theorem matmulZero_apply (l : FVec Ideal ⟨2, ![M, K]⟩ φ₁) (r : FVec Ideal ⟨2, ![K, N]⟩ φ₂)
    (j : (⟨2, ![M, N]⟩ : Shape).Idx) :
    matmul (F := Ideal) (DotDims.plain M K N) none l r (constant ⟨2, ![M, N]⟩ .f32 0x00000000#32) j
      = ∑ k : Fin K, l (ix2 (j 0) k) * r (ix2 k (j 1)) := by
  simp only [matmul]
  rw [Ideal.matmul_constant_zero_apply]
  exact sum_contr l r j

end Idealize.ShloMosaic.PlainDot

end
-- ==== Proof.LibColumn.lean ====
/-
  Column vectors kept as two-axis arrays, read at an index.

  A sum over the last axis with the axis kept leaves an `[a, 1]` array. These lemmas read the layout operations that
  handle such a column: the cast of a vector `[a]` to the column `[a, 1]`, the cast of the column to the row `[1, a]`
  (a transposition, since one extent is one), and the broadcast of the column along a new last axis `[a, b]`.
-/
import Idealize.ShloMosaic.Lib.ValueLayout
import Idealize.ShloMosaic.Lib.Pipeline.Value

namespace Idealize.ShloMosaic.ColumnLayout

open Idealize.ShloMosaic Idealize.ShloMosaic.ValueIdx

variable {α : Type} {a b : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` array broadcast to `[a, b]` reads, at `(p, c)`, the operand's one column at `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KerOps.lean ====
/-
  The kernel body's operations at the ideal values, read as matrix operations.

  A two-axis array is read as a matrix `(r, c) ↦ v (r, c)`. A `tpu.matmul` into the zero accumulator is then the matrix
  product, the pointwise operations act entry by entry, a change of float format is the identity, a `[1, a, b]` slab
  cast to `[a, b]` is the slab's one plane, and a `[1, b]` row broadcast over the rows is the row. The diagonal mask
  (row iota = column iota) selects exactly the entries with `r = c`, and a sum along the last axis of a square array
  is the row sum. With these the first Laplacian payload is the scaled Laplacian of the loaded adjacency plane.
-/
import proofs.«153474_g3504693314081_cont_8to1_b_212_24_alg».proof.Proof.Gen.KernelIdeal.Frame
import proofs.«153474_g3504693314081_cont_8to1_b_212_24_alg».proof.Proof.Spec
import proofs.«153474_g3504693314081_cont_8to1_b_212_24_alg».proof.Proof.LibPlainDot
import proofs.«153474_g3504693314081_cont_8to1_b_212_24_alg».proof.Proof.LibColumn
import Idealize.ShloMosaic.Lib.ValueLayout
import Idealize.ShloMosaic.Lib.Pipeline.Value
import Idealize.ShloMosaic.PureOps.Ideal.Laws

noncomputable section

namespace Cert.ChebNet.Ker

open Cert.KernelIdeal Cert.KernelIdeal.Gen Idealize.ShloMosaic Idealize.ShloMosaic.ValueIdx Idealize.ShloMosaic.ColumnLayout

variable {a b k : ℕ} {φ φ₁ φ₂ ψ : FTy}

/-- A two-axis array as a matrix. -/
def cur2 (v : FVec Ideal ⟨2, ![a, b]⟩ φ) : Fin a → Fin b → EReal := fun r c => v (ix2 r c)

/-- The one plane of a `[1, a, b]` slab as a matrix. -/
def plane (v : Vec Ideal ⟨3, ![1, a, b]⟩ .f32) : Fin a → Fin b → EReal := fun r c => v (ix3 (0 : Fin 1) r c)

/-- The one row of a `[1, b]` array. -/
def row (v : Vec Ideal ⟨2, ![1, b]⟩ .f32) : Fin b → EReal := fun o => v (ix2 (0 : Fin 1) o)

/-- Three weight planes as one family indexed by the Chebyshev order. -/
def wts3 (w0 w1 w2 : Vec Ideal ⟨3, ![1, a, b]⟩ .f32) : Fin 3 → Fin a → Fin b → EReal
  | ⟨0, _⟩ => plane w0
  | ⟨1, _⟩ => plane w1
  | ⟨_ + 2, _⟩ => plane w2

theorem wts3_zero (w0 w1 w2 : Vec Ideal ⟨3, ![1, a, b]⟩ .f32) : wts3 w0 w1 w2 0 = plane w0 := rfl
theorem wts3_one (w0 w1 w2 : Vec Ideal ⟨3, ![1, a, b]⟩ .f32) : wts3 w0 w1 w2 1 = plane w1 := rfl
theorem wts3_two (w0 w1 w2 : Vec Ideal ⟨3, ![1, a, b]⟩ .f32) : wts3 w0 w1 w2 2 = plane w2 := rfl

/-! ## The operations pushed through the matrix reading -/

theorem cur2_matmul (l : FVec Ideal ⟨2, ![a, k]⟩ φ₁) (r : FVec Ideal ⟨2, ![k, b]⟩ φ₂) :
    cur2 (matmul (F := Ideal) (DotDims.plain a k b) none l r (constant ⟨2, ![a, b]⟩ .f32 0x00000000#32))
      = mm (cur2 l) (cur2 r) := by
  funext r' c'; exact PlainDot.matmulZero_apply l r (ix2 r' c')

theorem dot1 : dot_S1024x1024_S1024x96_S1024x96_1_0_0_1_n_n = DotDims.plain 1024 1024 96 := rfl
theorem dot2 : dot_S1024x96_S96x64_S1024x64_1_0_0_1_n_n = DotDims.plain 1024 96 64 := rfl
theorem dot3 : dot_S1024x1024_S1024x64_S1024x64_1_0_0_1_n_n = DotDims.plain 1024 1024 64 := rfl
theorem dot4 : dot_S1024x64_S64x64_S1024x64_1_0_0_1_n_n = DotDims.plain 1024 64 64 := rfl
theorem dot5 : dot_S1024x64_S64x32_S1024x32_1_0_0_1_n_n = DotDims.plain 1024 64 32 := rfl
theorem dot6 : dot_S1024x1024_S1024x32_S1024x32_1_0_0_1_n_n = DotDims.plain 1024 1024 32 := rfl

theorem cur2_addf (x y : FVec Ideal ⟨2, ![a, b]⟩ φ) : cur2 (addf x y) = fun r c => cur2 x r c + cur2 y r c := rfl
theorem cur2_subf (x y : FVec Ideal ⟨2, ![a, b]⟩ φ) : cur2 (subf x y) = fun r c => cur2 x r c - cur2 y r c := rfl
theorem cur2_mulf (x y : FVec Ideal ⟨2, ![a, b]⟩ φ) : cur2 (mulf x y) = fun r c => cur2 x r c * cur2 y r c := rfl
theorem cur2_maximumf (x y : FVec Ideal ⟨2, ![a, b]⟩ φ) : cur2 (maximumf x y) = fun r c => max (cur2 x r c) (cur2 y r c) := rfl
theorem cur2_truncf (x : FVec Ideal ⟨2, ![a, b]⟩ φ) (h : ψ.bits < φ.bits) : cur2 (truncf ψ x h) = cur2 x := rfl
theorem cur2_broadcast (s : Ideal φ) : cur2 (broadcast (⟨2, ![a, b]⟩ : Shape) s) = fun _ _ => s := rfl

theorem cur2_plane (x : Vec Ideal ⟨3, ![1, a, b]⟩ .f32) (h : (⟨3, ![1, a, b]⟩ : Shape).ShapeCasts ⟨2, ![a, b]⟩) :
    cur2 (φ := .f32) (shapeCast ⟨2, ![a, b]⟩ x h) = plane x := by
  funext r c; exact shapeCast_1ab_ab_apply x h r c

theorem cur2_rowBias (v : Vec Ideal ⟨2, ![1, b]⟩ .f32) (h1 : (⟨2, ![1, b]⟩ : Shape).ShapeCasts ⟨1, ![b]⟩)
    (h2 : (⟨1, ![b]⟩ : Shape).ShapeCasts ⟨2, ![1, b]⟩) (h3 : (⟨2, ![1, b]⟩ : Shape).Broadcasts ⟨2, ![a, b]⟩) :
    cur2 (φ := .f32) (broadcastTo ⟨2, ![a, b]⟩ (shapeCast ⟨2, ![1, b]⟩ (shapeCast ⟨1, ![b]⟩ v h1) h2) h3) = fun _ c => row v c := by
  funext r c
  show broadcastTo ⟨2, ![a, b]⟩ _ h3 (ix2 r c) = _
  rw [broadcastTo_1b_ab_apply, shapeCast_a_1a_apply, shapeCast_1a_a_apply]; rfl

/-- A `[a, b]` array cast to `[1, a, b]` read at `(0, r, c)`. -/
theorem addPlane_apply (x : FVec Ideal ⟨2, ![a, b]⟩ .f32) (h : (⟨2, ![a, b]⟩ : Shape).ShapeCasts ⟨3, ![1, a, b]⟩)
    (u : Fin 1) (r : Fin a) (c : Fin b) : shapeCast ⟨3, ![1, a, b]⟩ x h (ix3 u r c) = cur2 x r c :=
  shapeCast_ab_1ab_apply x h u r c

theorem rsqrt_apply {s : Shape} (x : FVec Ideal s φ) (i : s.Idx) : rsqrt x i = Ideal.rsqrt (x i) := rfl

/-! ## The diagonal mask and the row sum -/

/-- The diagonal mask selects the entries with equal coordinates. -/
theorem diag_sel (x y : EReal) (r c : Fin 1024) :
    Scalar.select (k0_pay3 (ix2 r c)) x y = if r = c then x else y := by
  unfold k0_pay3 Scalar.select
  dsimp only [cmpi, iota, IntOp.cmpi, List.foldl]
  show (if BitVec.ofBool (BitVec.ofNat 32 (0 * 1024 + r.val) == BitVec.ofNat 32 (0 * 1024 + c.val)) = 1 then x else y) = _
  by_cases h : r = c
  · subst h; simp
  · rw [if_neg h, if_neg]
    intro hh
    apply h
    have e0 : (BitVec.ofNat 32 (0 * 1024 + r.val) == BitVec.ofNat 32 (0 * 1024 + c.val)) = true := by
      cases hb : (BitVec.ofNat 32 (0 * 1024 + r.val) == BitVec.ofNat 32 (0 * 1024 + c.val))
      · rw [hb] at hh; exact absurd hh (by decide)
      · rfl
    have e' := congrArg BitVec.toNat (eq_of_beq e0)
    simp only [BitVec.toNat_ofNat] at e'
    have hr := r.isLt; have hc := c.isLt
    apply Fin.ext; omega

/-- A sum along the last axis of a square array is the row sum. -/
theorem rowsum_apply (v : FVec Ideal S1024x1024 .f32) (hφ : FTy.f32 = FTy.f32 ∨ FTy.f32 = FTy.bf16)
    (hacc : (0#32 : BitVec 32) = 0#32) (r : Fin 1024) :
    multiReduction .add [1] S1024 v 0x00000000#32 reduces_S1024x1024_S1024 hφ hacc (ix1 r) = ∑ k : Fin 1024, v (ix2 r k) :=
  (Ideal.multiReduction_add_single v 0x00000000#32 reduces_S1024x1024_S1024 hφ hacc (ix1 r)).trans
    (Finset.sum_congr rfl fun k _ => congrArg v (funext fun a => Fin.ext (by match a with | ⟨0, _⟩ => rfl | ⟨1, _⟩ => rfl)))

/-! ## The Laplacian of the first graph of a block -/

/-- The first Laplacian payload is the scaled Laplacian of the loaded adjacency plane. -/
theorem lapA (v3 : Vec Ideal S1x1024x1024 .f32) : cur2 (k0_pay4 v3) = lapK (plane v3) := by
  funext r c
  unfold k0_pay4 lapK cur2 plane
  dsimp only
  simp only [truncf_apply, mulf_apply, broadcastTo_a1_ab_apply, broadcastTo_1b_ab_apply, shapeCast_a1_1a_apply, subf_apply,
    select_apply, broadcast_apply, shapeCast_a_a1_apply, cmpf_apply, maximumf_apply, shapeCast_1ab_ab_apply, diag_sel,
    rsqrt_apply, Ideal.ofBits_def, Ideal.cmpf_def, Ideal.maximumf_def, select_ogt, Ideal.ofBits_zero_f32,
    dinv, degSel, offSel, degFloor]
  repeat rw [rowsum_apply]
  simp only [select_apply, broadcast_apply, shapeCast_1ab_ab_apply, diag_sel]

end Cert.ChebNet.Ker

end
-- ==== Proof.KerG0.lean ====
/-
  The first graph of a block through the three layers.

  Each layer's payloads, read as matrices, are the first arrangement of a Chebyshev layer over the block's Laplacian:
  `h (W₀ - W₂) + (L h) W₁ + 2 · L ((L h) W₂) + b`, followed by `max · 0` after the first two layers.
-/
import proofs.«153474_g3504693314081_cont_8to1_b_212_24_alg».proof.Proof.KerOps

noncomputable section

namespace Cert.ChebNet.Ker

open Cert.KernelIdeal Cert.KernelIdeal.Gen Idealize.ShloMosaic Idealize.ShloMosaic.ValueIdx Idealize.ShloMosaic.ColumnLayout

/-- Layer one of the first graph. -/
theorem lay1A (L : FVec Ideal S1024x1024 .bf16) (v45 : Vec Ideal S1x1024x96 .f32) (w0 w1 w2 : Vec Ideal S1x96x64 .f32)
    (bb : Vec Ideal S1x64 .f32) :
    cur2 (k0_pay19 (k0_pay12 L v45) (k0_pay14 L v45 w2) (k0_pay16 v45 w0 w2) (k0_pay17 w1) bb)
      = relu (layK (cur2 L) (plane v45) (wts3 w0 w1 w2) (row bb)) := by
  unfold k0_pay19 k0_pay14 k0_pay16 k0_pay17 k0_pay12 k0_pay10 k0_pay9
  try dsimp only
  simp only [dot1, dot2, dot3, dot4, dot5, dot6, cur2_matmul, cur2_addf, cur2_subf, cur2_mulf, cur2_maximumf, cur2_truncf,
    cur2_broadcast, cur2_plane, cur2_rowBias]
  unfold relu layK
  simp only [Ideal.ofBits_def, Ideal.ofBits_zero_f32, twoLit, wts3_zero, wts3_one, wts3_two]

/-- Layer two of the first graph, over the first layer's output `H`. -/
theorem lay2A (L : FVec Ideal S1024x1024 .bf16) (p1 : FVec Ideal S1024x96 .bf16) (p2 p3 : FVec Ideal S1024x64 .f32)
    (p4 : FVec Ideal S96x64 .f32) (p5 : Vec Ideal S1x64 .f32) (w0 w1 w2 : Vec Ideal S1x64x64 .f32) (bb : Vec Ideal S1x64 .f32) :
    cur2 (k0_pay23 L (k0_pay18 w0 w2) (k0_pay19 p1 p2 p3 p4 p5) (k0_pay21 L p1 p2 p3 p4 p5) w2 w1 bb)
      = relu (layK (cur2 L) (cur2 (k0_pay19 p1 p2 p3 p4 p5)) (wts3 w0 w1 w2) (row bb)) := by
  unfold k0_pay23 k0_pay21 k0_pay18
  try dsimp only
  simp only [dot1, dot2, dot3, dot4, dot5, dot6, cur2_matmul, cur2_addf, cur2_subf, cur2_mulf, cur2_maximumf, cur2_truncf,
    cur2_broadcast, cur2_plane, cur2_rowBias]
  unfold relu layK
  simp only [Ideal.ofBits_def, Ideal.ofBits_zero_f32, twoLit, wts3_zero, wts3_one, wts3_two]

/-- Layer three of the first graph, over the second layer's output `H`, as stored: entry `(0, r, c)` of the stored slab. -/
theorem lay3A (L : FVec Ideal S1024x1024 .bf16) (H : FVec Ideal S1024x64 .f32) (w0 w1 w2 : Vec Ideal S1x64x32 .f32)
    (bb : Vec Ideal S1x32 .f32) (u : Fin 1) (r : Fin 1024) (c : Fin 32) :
    k0_pay1 (k0_pay31 L H w0 w2 w1) (k0_pay32 L H w2) bb (ix3 u r c)
      = layK (cur2 L) (cur2 H) (wts3 w0 w1 w2) (row bb) r c := by
  unfold k0_pay1
  try dsimp only
  rw [addPlane_apply]
  unfold k0_pay31 k0_pay32 k0_pay28 k0_pay26 k0_pay25
  try dsimp only
  simp only [dot1, dot2, dot3, dot4, dot5, dot6, cur2_matmul, cur2_addf, cur2_subf, cur2_mulf, cur2_maximumf, cur2_truncf,
    cur2_broadcast, cur2_plane, cur2_rowBias]
  unfold layK
  simp only [Ideal.ofBits_def, twoLit, wts3_zero, wts3_one, wts3_two]

end Cert.ChebNet.Ker

end
-- ==== Proof.KerG1.lean ====
/-
  The second graph of a block through the Laplacian and the three layers.

  The second graph's operations are grouped into payloads differently from the first graph's, but they are the same
  operations: the adjacency with its diagonal selected away, its row sums and their inverse square roots, the scaled
  Laplacian `((0 - d_r) · a_rc) · d_c`, and per layer `h (W₀ - W₂) + (L h) W₁ + 2 · L ((L h) W₂) + b`, followed by
  `max · 0` after the first two layers.
-/
import proofs.«153474_g3504693314081_cont_8to1_b_212_24_alg».proof.Proof.KerOps

noncomputable section

namespace Cert.ChebNet.Ker

open Cert.KernelIdeal Cert.KernelIdeal.Gen Idealize.ShloMosaic Idealize.ShloMosaic.ValueIdx Idealize.ShloMosaic.ColumnLayout

/-- The second graph's Laplacian payloads are the scaled Laplacian of the loaded adjacency plane. -/
theorem lapB (v24 : Vec Ideal S1x1024x1024 .f32) : cur2 (k0_pay8 (k0_pay6 v24) (k0_pay7 v24)) = lapK (plane v24) := by
  funext r c
  unfold k0_pay8 k0_pay7 k0_pay6 k0_pay5 lapK cur2 plane
  dsimp only
  simp only [truncf_apply, mulf_apply, broadcastTo_a1_ab_apply, broadcastTo_1b_ab_apply, shapeCast_a1_1a_apply, subf_apply,
    select_apply, broadcast_apply, shapeCast_a_a1_apply, cmpf_apply, maximumf_apply, shapeCast_1ab_ab_apply, diag_sel,
    rsqrt_apply, Ideal.ofBits_def, Ideal.cmpf_def, Ideal.maximumf_def, select_ogt, Ideal.ofBits_zero_f32,
    dinv, degSel, offSel, degFloor]
  repeat rw [rowsum_apply]
  simp only [select_apply, broadcast_apply, shapeCast_1ab_ab_apply, diag_sel]

/-- Layer one of the second graph, over the Laplacian `k0_pay8 d e`. -/
theorem lay1B (d : FVec Ideal S1024x1 .f32) (e : FVec Ideal S1024x1024 .f32) (v47 : Vec Ideal S1x1024x96 .f32)
    (w0 w1 w2 : Vec Ideal S1x96x64 .f32) (bb : Vec Ideal S1x64 .f32) :
    cur2 (k0_pay20 (k0_pay9 w0 w2) (k0_pay11 v47) (k0_pay13 d e v47) (k0_pay15 d e v47 w2) w1 bb)
      = relu (layK (cur2 (k0_pay8 d e)) (plane v47) (wts3 w0 w1 w2) (row bb)) := by
  unfold k0_pay20 k0_pay15 k0_pay13 k0_pay11 k0_pay9
  try dsimp only
  simp only [dot1, dot2, dot3, dot4, dot5, dot6, cur2_matmul, cur2_addf, cur2_subf, cur2_mulf, cur2_maximumf, cur2_truncf,
    cur2_broadcast, cur2_plane, cur2_rowBias]
  unfold relu layK
  simp only [Ideal.ofBits_def, Ideal.ofBits_zero_f32, twoLit, wts3_zero, wts3_one, wts3_two]

/-- Layer two of the second graph, over the first layer's output. -/
theorem lay2B (L : FVec Ideal S1024x1024 .bf16) (q1 : FVec Ideal S96x64 .f32) (q2 q3 : FVec Ideal S1024x96 .bf16)
    (q4 : FVec Ideal S1024x64 .f32) (q5 : Vec Ideal S1x96x64 .f32) (q6 : Vec Ideal S1x64 .f32)
    (w0 w1 w2 : Vec Ideal S1x64x64 .f32) (bb : Vec Ideal S1x64 .f32) :
    cur2 (k0_pay27 (k0_pay24 L (k0_pay18 w0 w2) (k0_pay20 q1 q2 q3 q4 q5 q6) (k0_pay22 L q1 q2 q3 q4 q5 q6) w2 w1) bb)
      = relu (layK (cur2 L) (cur2 (k0_pay20 q1 q2 q3 q4 q5 q6)) (wts3 w0 w1 w2) (row bb)) := by
  unfold k0_pay27 k0_pay24 k0_pay22 k0_pay18
  try dsimp only
  simp only [dot1, dot2, dot3, dot4, dot5, dot6, cur2_matmul, cur2_addf, cur2_subf, cur2_mulf, cur2_maximumf, cur2_truncf,
    cur2_broadcast, cur2_plane, cur2_rowBias]
  unfold relu layK
  simp only [Ideal.ofBits_def, Ideal.ofBits_zero_f32, twoLit, wts3_zero, wts3_one, wts3_two]

/-- Layer three of the second graph, over the second layer's output, as stored: entry `(0, r, c)` of the stored slab. -/
theorem lay3B (L : FVec Ideal S1024x1024 .bf16) (p : FVec Ideal S1024x64 .f32) (q : Vec Ideal S1x64 .f32)
    (w0 w1 w2 : Vec Ideal S1x64x32 .f32) (bb : Vec Ideal S1x32 .f32) (u : Fin 1) (r : Fin 1024) (c : Fin 32) :
    k0_pay2 (k0_pay25 w0 w2) (k0_pay27 p q) (k0_pay29 L p q) (k0_pay30 L p q w2) w1 bb (ix3 u r c)
      = layK (cur2 L) (cur2 (k0_pay27 p q)) (wts3 w0 w1 w2) (row bb) r c := by
  unfold k0_pay2
  try dsimp only
  rw [addPlane_apply]
  unfold k0_pay30 k0_pay29 k0_pay25
  try dsimp only
  simp only [dot1, dot2, dot3, dot4, dot5, dot6, cur2_matmul, cur2_addf, cur2_subf, cur2_mulf, cur2_maximumf, cur2_truncf,
    cur2_broadcast, cur2_plane, cur2_rowBias]
  unfold layK
  simp only [Ideal.ofBits_def, twoLit, wts3_zero, wts3_one, wts3_two]

end Cert.ChebNet.Ker

end
-- ==== Proof.KerBody.lean ====
/-
  What the kernel body leaves in the result block.

  The body stores two slabs into the result block [2, 1024, 32]: plane 0 from the first graph of the input blocks and
  plane 1 from the second. Each slab is computed from slabs loaded through unit-stride rectangles: plane 0 or 1 of the
  adjacency block and of the feature block, the three planes of each weight array (orders 0, 1, 2 of the Chebyshev
  recurrence) and the bias rows. A loaded slab read as a matrix is the corresponding plane of the block; through the
  three layers each stored slab is therefore the network (first arrangement) of its graph's adjacency and feature
  planes with the shared weights and biases. The two stores cover the block, so the block is that one function of the
  input blocks at every index.
-/
import proofs.«153474_g3504693314081_cont_8to1_b_212_24_alg».proof.Proof.KerArray
import proofs.«153474_g3504693314081_cont_8to1_b_212_24_alg».proof.Proof.KerG0
import proofs.«153474_g3504693314081_cont_8to1_b_212_24_alg».proof.Proof.KerG1

noncomputable section

namespace Cert.ChebNet.Ker

open Cert.KernelIdeal Cert.KernelIdeal.Gen Idealize.ShloMosaic Idealize.ShloMosaic.ValueIdx

/-- The slab loaded through this rectangle is plane 0 of the block. -/
theorem plane_ld_x0_0 (x : Vec Ideal S2x1024x1024 .f32) :
    plane (View.ld x r0_0 : Vec Ideal S1x1024x1024 .f32) = fun r c => x (ix3 0 r c) := by
  funext r c
  show x (r0_0.idx (ix3 0 r c)) = x (ix3 0 r c)
  congr 1
  funext a
  apply Fin.ext
  match a with
  | ⟨0, _⟩ => rfl
  | ⟨1, _⟩ => show 0 + 1 * r.val = r.val; omega
  | ⟨2, _⟩ => show 0 + 1 * c.val = c.val; omega

/-- The slab loaded through this rectangle is plane 1 of the block. -/
theorem plane_ld_x0_1 (x : Vec Ideal S2x1024x1024 .f32) :
    plane (View.ld x r0_1 : Vec Ideal S1x1024x1024 .f32) = fun r c => x (ix3 1 r c) := by
  funext r c
  show x (r0_1.idx (ix3 0 r c)) = x (ix3 1 r c)
  congr 1
  funext a
  apply Fin.ext
  match a with
  | ⟨0, _⟩ => rfl
  | ⟨1, _⟩ => show 0 + 1 * r.val = r.val; omega
  | ⟨2, _⟩ => show 0 + 1 * c.val = c.val; omega

/-- The slab loaded through this rectangle is plane 0 of the block. -/
theorem plane_ld_x1_0 (x : Vec Ideal S2x1024x96 .f32) :
    plane (View.ld x r0_2 : Vec Ideal S1x1024x96 .f32) = fun r c => x (ix3 0 r c) := by
  funext r c
  show x (r0_2.idx (ix3 0 r c)) = x (ix3 0 r c)
  congr 1
  funext a
  apply Fin.ext
  match a with
  | ⟨0, _⟩ => rfl
  | ⟨1, _⟩ => show 0 + 1 * r.val = r.val; omega
  | ⟨2, _⟩ => show 0 + 1 * c.val = c.val; omega

/-- The slab loaded through this rectangle is plane 1 of the block. -/
theorem plane_ld_x1_1 (x : Vec Ideal S2x1024x96 .f32) :
    plane (View.ld x r0_3 : Vec Ideal S1x1024x96 .f32) = fun r c => x (ix3 1 r c) := by
  funext r c
  show x (r0_3.idx (ix3 0 r c)) = x (ix3 1 r c)
  congr 1
  funext a
  apply Fin.ext
  match a with
  | ⟨0, _⟩ => rfl
  | ⟨1, _⟩ => show 0 + 1 * r.val = r.val; omega
  | ⟨2, _⟩ => show 0 + 1 * c.val = c.val; omega

/-- The three slabs loaded from this weight array are its three planes, in the Chebyshev order. -/
theorem wts3_ld_x2 (x : Vec Ideal S3x96x64 .f32) :
    wts3 (View.ld x r0_4 : Vec Ideal S1x96x64 .f32) (View.ld x r0_6 : Vec Ideal S1x96x64 .f32) (View.ld x r0_5 : Vec Ideal S1x96x64 .f32)
      = fun k a o => x (ix3 k a o) := by
  funext k a o
  match k with
  | ⟨0, _⟩ =>
    show x (r0_4.idx (ix3 0 a o)) = x (ix3 0 a o)
    congr 1; funext d; apply Fin.ext
    match d with
    | ⟨0, _⟩ => rfl
    | ⟨1, _⟩ => show 0 + 1 * a.val = a.val; omega
    | ⟨2, _⟩ => show 0 + 1 * o.val = o.val; omega
  | ⟨1, _⟩ =>
    show x (r0_6.idx (ix3 0 a o)) = x (ix3 1 a o)
    congr 1; funext d; apply Fin.ext
    match d with
    | ⟨0, _⟩ => rfl
    | ⟨1, _⟩ => show 0 + 1 * a.val = a.val; omega
    | ⟨2, _⟩ => show 0 + 1 * o.val = o.val; omega
  | ⟨2, _⟩ =>
    show x (r0_5.idx (ix3 0 a o)) = x (ix3 2 a o)
    congr 1; funext d; apply Fin.ext
    match d with
    | ⟨0, _⟩ => rfl
    | ⟨1, _⟩ => show 0 + 1 * a.val = a.val; omega
    | ⟨2, _⟩ => show 0 + 1 * o.val = o.val; omega

/-- The three slabs loaded from this weight array are its three planes, in the Chebyshev order. -/
theorem wts3_ld_x4 (x : Vec Ideal S3x64x64 .f32) :
    wts3 (View.ld x r0_8 : Vec Ideal S1x64x64 .f32) (View.ld x r0_10 : Vec Ideal S1x64x64 .f32) (View.ld x r0_9 : Vec Ideal S1x64x64 .f32)
      = fun k a o => x (ix3 k a o) := by
  funext k a o
  match k with
  | ⟨0, _⟩ =>
    show x (r0_8.idx (ix3 0 a o)) = x (ix3 0 a o)
    congr 1; funext d; apply Fin.ext
    match d with
    | ⟨0, _⟩ => rfl
    | ⟨1, _⟩ => show 0 + 1 * a.val = a.val; omega
    | ⟨2, _⟩ => show 0 + 1 * o.val = o.val; omega
  | ⟨1, _⟩ =>
    show x (r0_10.idx (ix3 0 a o)) = x (ix3 1 a o)
    congr 1; funext d; apply Fin.ext
    match d with
    | ⟨0, _⟩ => rfl
    | ⟨1, _⟩ => show 0 + 1 * a.val = a.val; omega
    | ⟨2, _⟩ => show 0 + 1 * o.val = o.val; omega
  | ⟨2, _⟩ =>
    show x (r0_9.idx (ix3 0 a o)) = x (ix3 2 a o)
    congr 1; funext d; apply Fin.ext
    match d with
    | ⟨0, _⟩ => rfl
    | ⟨1, _⟩ => show 0 + 1 * a.val = a.val; omega
    | ⟨2, _⟩ => show 0 + 1 * o.val = o.val; omega

/-- The three slabs loaded from this weight array are its three planes, in the Chebyshev order. -/
theorem wts3_ld_x6 (x : Vec Ideal S3x64x32 .f32) :
    wts3 (View.ld x r0_11 : Vec Ideal S1x64x32 .f32) (View.ld x r0_13 : Vec Ideal S1x64x32 .f32) (View.ld x r0_12 : Vec Ideal S1x64x32 .f32)
      = fun k a o => x (ix3 k a o) := by
  funext k a o
  match k with
  | ⟨0, _⟩ =>
    show x (r0_11.idx (ix3 0 a o)) = x (ix3 0 a o)
    congr 1; funext d; apply Fin.ext
    match d with
    | ⟨0, _⟩ => rfl
    | ⟨1, _⟩ => show 0 + 1 * a.val = a.val; omega
    | ⟨2, _⟩ => show 0 + 1 * o.val = o.val; omega
  | ⟨1, _⟩ =>
    show x (r0_13.idx (ix3 0 a o)) = x (ix3 1 a o)
    congr 1; funext d; apply Fin.ext
    match d with
    | ⟨0, _⟩ => rfl
    | ⟨1, _⟩ => show 0 + 1 * a.val = a.val; omega
    | ⟨2, _⟩ => show 0 + 1 * o.val = o.val; omega
  | ⟨2, _⟩ =>
    show x (r0_12.idx (ix3 0 a o)) = x (ix3 2 a o)
    congr 1; funext d; apply Fin.ext
    match d with
    | ⟨0, _⟩ => rfl
    | ⟨1, _⟩ => show 0 + 1 * a.val = a.val; omega
    | ⟨2, _⟩ => show 0 + 1 * o.val = o.val; omega

/-- The bias row loaded whole is the bias row. -/
theorem row_ld_64 (x : Vec Ideal S1x64 .f32) : row (View.ld x r0_7 : Vec Ideal S1x64 .f32) = fun o => x (ix2 0 o) := by
  funext o
  show x (r0_7.idx (ix2 0 o)) = x (ix2 0 o)
  congr 1
  funext a
  apply Fin.ext
  match a with
  | ⟨0, _⟩ => rfl
  | ⟨1, _⟩ => show 0 + 1 * o.val = o.val; omega

/-- The bias row loaded whole is the bias row. -/
theorem row_ld_32 (x : Vec Ideal S1x32 .f32) : row (View.ld x r0_14 : Vec Ideal S1x32 .f32) = fun o => x (ix2 0 o) := by
  funext o
  show x (r0_14.idx (ix2 0 o)) = x (ix2 0 o)
  congr 1
  funext a
  apply Fin.ext
  match a with
  | ⟨0, _⟩ => rfl
  | ⟨1, _⟩ => show 0 + 1 * o.val = o.val; omega

/-- This store's rectangle is plane 0 of the result block. -/
theorem emb_r0_15 (u : Fin 1) (r : Fin 1024) (c : Fin 32) : (r0_15.emb (ix3 u r c) : S2x1024x32.Idx) = ix3 0 r c := by
  funext a
  apply Fin.ext
  have hu : u.val = 0 := by omega
  match a with
  | ⟨0, _⟩ => show 0 + 1 * u.val = 0; omega
  | ⟨1, _⟩ => show 0 + 1 * r.val = r.val; omega
  | ⟨2, _⟩ => show 0 + 1 * c.val = c.val; omega

/-- This store's rectangle is plane 1 of the result block. -/
theorem emb_r0_16 (u : Fin 1) (r : Fin 1024) (c : Fin 32) : (r0_16.emb (ix3 u r c) : S2x1024x32.Idx) = ix3 1 r c := by
  funext a
  apply Fin.ext
  have hu : u.val = 0 := by omega
  match a with
  | ⟨0, _⟩ => show 1 + 1 * u.val = 1; omega
  | ⟨1, _⟩ => show 0 + 1 * r.val = r.val; omega
  | ⟨2, _⟩ => show 0 + 1 * c.val = c.val; omega

/-- The first graph's stored slab, through the three layers: the network of the loaded adjacency and feature planes. -/
theorem netA (v3 : Vec Ideal S1x1024x1024 .f32) (v45 : Vec Ideal S1x1024x96 .f32) (a0 a1 a2 : Vec Ideal S1x96x64 .f32) (ab : Vec Ideal S1x64 .f32) (b0 b1 b2 : Vec Ideal S1x64x64 .f32) (bb : Vec Ideal S1x64 .f32) (c0 c1 c2 : Vec Ideal S1x64x32 .f32) (cb : Vec Ideal S1x32 .f32) (u : Fin 1) (r : Fin 1024) (c : Fin 32) :
    k0_pay1 (k0_pay31 (k0_pay4 v3) (k0_pay23 (k0_pay4 v3) (k0_pay18 b0 b2) (k0_pay19 (k0_pay12 (k0_pay4 v3) v45) (k0_pay14 (k0_pay4 v3) v45 a2) (k0_pay16 v45 a0 a2) (k0_pay17 a1) ab) (k0_pay21 (k0_pay4 v3) (k0_pay12 (k0_pay4 v3) v45) (k0_pay14 (k0_pay4 v3) v45 a2) (k0_pay16 v45 a0 a2) (k0_pay17 a1) ab) b2 b1 bb) c0 c2 c1) (k0_pay32 (k0_pay4 v3) (k0_pay23 (k0_pay4 v3) (k0_pay18 b0 b2) (k0_pay19 (k0_pay12 (k0_pay4 v3) v45) (k0_pay14 (k0_pay4 v3) v45 a2) (k0_pay16 v45 a0 a2) (k0_pay17 a1) ab) (k0_pay21 (k0_pay4 v3) (k0_pay12 (k0_pay4 v3) v45) (k0_pay14 (k0_pay4 v3) v45 a2) (k0_pay16 v45 a0 a2) (k0_pay17 a1) ab) b2 b1 bb) c2) cb (ix3 u r c)
      = netK (plane v3) (plane v45) (wts3 a0 a1 a2) (row ab) (wts3 b0 b1 b2) (row bb) (wts3 c0 c1 c2) (row cb) r c := by
  rw [lay3A, lay2A, lay1A, lapA]
  rfl

/-- The second graph's stored slab, through the three layers: the network of the loaded adjacency and feature planes. -/
theorem netB (v24 : Vec Ideal S1x1024x1024 .f32) (v47 : Vec Ideal S1x1024x96 .f32) (a0 a1 a2 : Vec Ideal S1x96x64 .f32) (ab : Vec Ideal S1x64 .f32) (b0 b1 b2 : Vec Ideal S1x64x64 .f32) (bb : Vec Ideal S1x64 .f32) (c0 c1 c2 : Vec Ideal S1x64x32 .f32) (cb : Vec Ideal S1x32 .f32) (u : Fin 1) (r : Fin 1024) (c : Fin 32) :
    k0_pay2 (k0_pay25 c0 c2) (k0_pay27 (k0_pay24 (k0_pay8 (k0_pay6 v24) (k0_pay7 v24)) (k0_pay18 b0 b2) (k0_pay20 (k0_pay9 a0 a2) (k0_pay11 v47) (k0_pay13 (k0_pay6 v24) (k0_pay7 v24) v47) (k0_pay15 (k0_pay6 v24) (k0_pay7 v24) v47 a2) a1 ab) (k0_pay22 (k0_pay8 (k0_pay6 v24) (k0_pay7 v24)) (k0_pay9 a0 a2) (k0_pay11 v47) (k0_pay13 (k0_pay6 v24) (k0_pay7 v24) v47) (k0_pay15 (k0_pay6 v24) (k0_pay7 v24) v47 a2) a1 ab) b2 b1) bb) (k0_pay29 (k0_pay8 (k0_pay6 v24) (k0_pay7 v24)) (k0_pay24 (k0_pay8 (k0_pay6 v24) (k0_pay7 v24)) (k0_pay18 b0 b2) (k0_pay20 (k0_pay9 a0 a2) (k0_pay11 v47) (k0_pay13 (k0_pay6 v24) (k0_pay7 v24) v47) (k0_pay15 (k0_pay6 v24) (k0_pay7 v24) v47 a2) a1 ab) (k0_pay22 (k0_pay8 (k0_pay6 v24) (k0_pay7 v24)) (k0_pay9 a0 a2) (k0_pay11 v47) (k0_pay13 (k0_pay6 v24) (k0_pay7 v24) v47) (k0_pay15 (k0_pay6 v24) (k0_pay7 v24) v47 a2) a1 ab) b2 b1) bb) (k0_pay30 (k0_pay8 (k0_pay6 v24) (k0_pay7 v24)) (k0_pay24 (k0_pay8 (k0_pay6 v24) (k0_pay7 v24)) (k0_pay18 b0 b2) (k0_pay20 (k0_pay9 a0 a2) (k0_pay11 v47) (k0_pay13 (k0_pay6 v24) (k0_pay7 v24) v47) (k0_pay15 (k0_pay6 v24) (k0_pay7 v24) v47 a2) a1 ab) (k0_pay22 (k0_pay8 (k0_pay6 v24) (k0_pay7 v24)) (k0_pay9 a0 a2) (k0_pay11 v47) (k0_pay13 (k0_pay6 v24) (k0_pay7 v24) v47) (k0_pay15 (k0_pay6 v24) (k0_pay7 v24) v47 a2) a1 ab) b2 b1) bb c2) c1 cb (ix3 u r c)
      = netK (plane v24) (plane v47) (wts3 a0 a1 a2) (row ab) (wts3 b0 b1 b2) (row bb) (wts3 c0 c1 c2) (row cb) r c := by
  rw [lay3B, lay2B, lay1B, lapB]
  rfl

/-- The result block as one function of the input blocks: graph y₀ of the block is the network of graph y₀ of the
    adjacency block and of the feature block. -/
abbrev blockNet (x0 : Vec Ideal S2x1024x1024 .f32) (x1 : Vec Ideal S2x1024x96 .f32) (x2 : Vec Ideal S3x96x64 .f32) (x3 : Vec Ideal S1x64 .f32) (x4 : Vec Ideal S3x64x64 .f32) (x5 : Vec Ideal S1x64 .f32) (x6 : Vec Ideal S3x64x32 .f32) (x7 : Vec Ideal S1x32 .f32) : S2x1024x32.Idx → EReal :=
  fun y => netK (fun r c => x0 (ix3 (y 0) r c)) (fun r k => x1 (ix3 (y 0) r k)) (fun k a o => x2 (ix3 k a o)) (fun o => x3 (ix2 0 o)) (fun k a o => x4 (ix3 k a o)) (fun o => x5 (ix2 0 o)) (fun k a o => x6 (ix3 k a o)) (fun o => x7 (ix2 0 o)) (y 1) (y 2)

/-- What the kernel body leaves in the result block: the two stores are the two graphs' slabs, each the network of its
    graph's planes of the input blocks, and together they cover the block. -/
theorem body : BodySpec := by
  intro x0 x1 x2 x3 x4 x5 x6 x7 g r c
  unfold out0_8
  refine View.canon_apply_of_pieces (Val := Elt Ideal) (blockNet x0 x1 x2 x3 x4 x5 x6 x7) _ ?_ (ix3 g r c) (cover0_8 _ _ _)
  intro p hp
  rcases List.mem_cons.mp hp with rfl | hp
  · intro x
    obtain ⟨u, r', c', rfl⟩ : ∃ (u : Fin 1) (r' : Fin 1024) (c' : Fin 32), x = ix3 u r' c' := ⟨x 0, x 1, x 2, eq_ix3 x⟩
    refine (netB _ _ _ _ _ _ _ _ _ _ _ _ _ _ u r' c').trans ?_
    rw [plane_ld_x0_1, plane_ld_x1_1, wts3_ld_x2, wts3_ld_x4, wts3_ld_x6, row_ld_64, row_ld_64, row_ld_32]
    show _ = blockNet x0 x1 x2 x3 x4 x5 x6 x7 (r0_16.emb (ix3 u r' c'))
    rw [emb_r0_16]
  · rcases List.mem_singleton.mp hp with rfl
    intro x
    obtain ⟨u, r', c', rfl⟩ : ∃ (u : Fin 1) (r' : Fin 1024) (c' : Fin 32), x = ix3 u r' c' := ⟨x 0, x 1, x 2, eq_ix3 x⟩
    refine (netA _ _ _ _ _ _ _ _ _ _ _ _ _ _ u r' c').trans ?_
    rw [plane_ld_x0_0, plane_ld_x1_0, wts3_ld_x2, wts3_ld_x4, wts3_ld_x6, row_ld_64, row_ld_64, row_ld_32]
    show _ = blockNet x0 x1 x2 x3 x4 x5 x6 x7 (r0_15.emb (ix3 u r' c'))
    rw [emb_r0_15]

end Cert.ChebNet.Ker

end
-- ==== Proof.lean ====
/-
  A three-layer Chebyshev graph network over a batch of eight graphs: a fused kernel against its plain reference.

  Both programs take node features [8, 1024, 12, 8] (read as [8, 1024, 96]), adjacencies [8, 1024, 1024], three weight
  families [3, ·, ·] and three biases, and return [8, 1024, 32]. Graph by graph both build the scaled Laplacian
  `L = -D^(-1/2) A₀ D^(-1/2)` (`A₀` the adjacency without its diagonal, `D` its row sums, the inverse square root taken of
  `max d floor` where `d > 0` and `0` elsewhere) and apply three Chebyshev layers of order three with `max · 0` between.
  The reference computes a layer as `h W₀ + (L h) W₁ + (2 L (L h) - h) W₂ + b`; the kernel, two graphs per grid point,
  as `h (W₀ - W₂) + (L h) W₁ + 2 L ((L h) W₂) + b`, its matrix products fed through a narrower float format that is the
  identity on the extended reals.

  The value claim: every input entry is finite (the precondition), so every intermediate entry of either program is a
  real number, and on reals the two layer forms agree by distributivity of the matrix product over `W₀ - W₂` and its
  associativity, `L ((L h) W₂) = (L (L h)) W₂`; the two spellings of the Laplacian agree by the sign rule. The kernel's
  result array is the first arrangement of the network of graph `b` at every index `(b, r, c)` — block `t` of the
  result holds graphs `2t` and `2t + 1` — and the reference's is the second.

  The frames of the two kernel programs are their run theorems; the reference's frame is its run with the result
  dropped; the idealization rewrote no operation.
-/
import proofs.«153474_g3504693314081_cont_8to1_b_212_24_alg».proof.Defs
import proofs.«153474_g3504693314081_cont_8to1_b_212_24_alg».proof.Proof.Gen.Kernel
import proofs.«153474_g3504693314081_cont_8to1_b_212_24_alg».proof.Proof.Gen.Kernel.Skeleton
import proofs.«153474_g3504693314081_cont_8to1_b_212_24_alg».proof.Proof.Gen.Kernel.Launch
import proofs.«153474_g3504693314081_cont_8to1_b_212_24_alg».proof.Proof.Gen.Kernel.Points
import proofs.«153474_g3504693314081_cont_8to1_b_212_24_alg».proof.Proof.Gen.Kernel.Frame
import proofs.«153474_g3504693314081_cont_8to1_b_212_24_alg».proof.Proof.Gen.KernelIdeal
import proofs.«153474_g3504693314081_cont_8to1_b_212_24_alg».proof.Proof.Gen.KernelIdeal.Skeleton
import proofs.«153474_g3504693314081_cont_8to1_b_212_24_alg».proof.Proof.Gen.KernelIdeal.Launch
import proofs.«153474_g3504693314081_cont_8to1_b_212_24_alg».proof.Proof.Gen.KernelIdeal.Points
import proofs.«153474_g3504693314081_cont_8to1_b_212_24_alg».proof.Proof.Gen.KernelIdeal.Frame
import proofs.«153474_g3504693314081_cont_8to1_b_212_24_alg».proof.Proof.Gen.KernelIdeal.Value
import proofs.«153474_g3504693314081_cont_8to1_b_212_24_alg».proof.Proof.Gen.ReferenceIdeal
import proofs.«153474_g3504693314081_cont_8to1_b_212_24_alg».proof.Proof.Gen.Pre_finite_inputs
import proofs.«153474_g3504693314081_cont_8to1_b_212_24_alg».proof.Proof.RefRunPatched
import proofs.«153474_g3504693314081_cont_8to1_b_212_24_alg».proof.Proof.RefReadPatched
import proofs.«153474_g3504693314081_cont_8to1_b_212_24_alg».proof.Proof.Spec
import proofs.«153474_g3504693314081_cont_8to1_b_212_24_alg».proof.Proof.Algebra
import proofs.«153474_g3504693314081_cont_8to1_b_212_24_alg».proof.Proof.Finite
import proofs.«153474_g3504693314081_cont_8to1_b_212_24_alg».proof.Proof.RefNet
import proofs.«153474_g3504693314081_cont_8to1_b_212_24_alg».proof.Proof.KerArray
import proofs.«153474_g3504693314081_cont_8to1_b_212_24_alg».proof.Proof.KerBody
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array is the first arrangement of the network and
    the reference's the second; the arguments are finite, so the two arrangements are one function. -/
theorem algebraic : Cert.algebraic_KernelIdeal_ReferenceIdeal := by
  intro m ρ m' ρ' hpre hagree
  refine ⟨fun c => Cert.ChebNet.Ker.whole m c, Cert.ChebNet.Ker.run m ρ Cert.ChebNet.Ker.body, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4, f5, f6, f7⟩ := Cert.ChebNet.Finite.finite_of_pre m hpre c
  obtain ⟨e0, e1, e2, e3, e4, e5, e6, e7⟩ := hagree c
  rw [Cert.ReferenceIdeal.Read.val_main_v84_eq, Cert.ChebNet.Ref.ref_eq, e0, e1, e2, e3, e4, e5, e6, e7]
  exact (Cert.ChebNet.wholeK_eq_wholeR _ _ _ _ _ _ _ _ (Cert.ChebNet.shapeCast_real _ _ f0) f1 f2 f3 f4 f5 f6 f7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
